-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v16_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048 : Shape := ⟨2, ![4, 2048]⟩
abbrev S32000x1024 : Shape := ⟨2, ![32000, 1024]⟩
abbrev S1024x1024 : Shape := ⟨2, ![1024, 1024]⟩
abbrev S32000 : Shape := ⟨1, ![32000]⟩
abbrev S_ : Shape := ⟨0, ![]⟩

class Facts : Prop where
  bcast_S_S32000x1024 : S_.BroadcastsInDim S32000x1024 (![] : Fin 0 → Fin S32000x1024.rank)
  reducesTo_S32000x1024_S_d0_1 : S32000x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S32000 : S_.BroadcastsInDim S32000 (![] : Fin 0 → Fin S32000.rank)
  reducesTo_S32000_S_d0 : S32000.ReducesTo [0] S_

variable [Facts]

def fn_part1 {F : FTy → Type} [FloatOps F] (main_arg5 : FVec F S32000x1024 .f32) (main_arg6 : FVec F S32000 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S32000x1024 .f32 := Host.absf main_arg5
  let main_cst_6 : FVec F S_ .f32 := constant S_ .f32 0x7F800000#32
  let main_v20 : FVec F S32000x1024 .f32 := broadcastInDim S32000x1024 ![] bcast_S_S32000x1024 main_cst_6
  let main_v21 : IVec S32000x1024 1 := cmpf .olt main_v19 main_v20
  let main_c_7 : IVec S_ 1 := constantI S_ 1 1#1
  let main_v22 : IVec S_ 1 := (fun x v => Host.reduce IntOp.andi x v reducesTo_S32000x1024_S_d0_1 h_S_) main_v21 main_c_7
  let main_v23 : IVec S_ 1 := andi main_v18 main_v22
  let main_v24 : FVec F S32000 .f32 := Host.absf main_arg6
  let main_cst_8 : FVec F S_ .f32 := constant S_ .f32 0x7F800000#32
  let main_v25 : FVec F S32000 .f32 := broadcastInDim S32000 ![] bcast_S_S32000 main_cst_8
  let main_v26 : IVec S32000 1 := cmpf .olt main_v24 main_v25
  let main_c_9 : IVec S_ 1 := constantI S_ 1 1#1
  let main_v27 : IVec S_ 1 := (fun x v => Host.reduce IntOp.andi x v reducesTo_S32000_S_d0 h_S_) main_v26 main_c_9
  let main_v28 : IVec S_ 1 := andi main_v23 main_v27
  main_v28

def fn {F : FTy → Type} [FloatOps F] (main_arg0 : IVec S4x2048 32) (main_arg1 : FVec F S32000x1024 .f32) (main_arg2 : FVec F S1024x1024 .f32) (main_arg3 : FVec F S1024x1024 .f32) (main_arg4 : FVec F S1024x1024 .f32) (main_arg5 : FVec F S32000x1024 .f32) (main_arg6 : FVec F S32000 .f32) : IVec S_ 1 :=
  let main_v0 : FVec F S32000x1024 .f32 := Host.absf main_arg1
  let main_cst : FVec F S_ .f32 := constant S_ .f32 0x7F800000#32
  let main_v1 : FVec F S32000x1024 .f32 := broadcastInDim S32000x1024 ![] bcast_S_S32000x1024 main_cst
  let main_v2 : IVec S32000x1024 1 := cmpf .olt main_v0 main_v1
  let main_c : IVec S_ 1 := constantI S_ 1 1#1
  let main_v3 : IVec S_ 1 := (fun x v => Host.reduce IntOp.andi x v reducesTo_S32000x1024_S_d0_1 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_v13 main_v16
-- ==== Kernel.lean ====
abbrev S4x2048 : Shape := ⟨2, ![4, 2048]⟩
abbrev S32000x1024 : Shape := ⟨2, ![32000, 1024]⟩
abbrev S1024x1024 : Shape := ⟨2, ![1024, 1024]⟩
abbrev S32000 : Shape := ⟨1, ![32000]⟩
abbrev S_ : Shape := ⟨0, ![]⟩
abbrev S4x2048x1 : Shape := ⟨3, ![4, 2048, 1]⟩
abbrev S4x2048x1024 : Shape := ⟨3, ![4, 2048, 1024]⟩
abbrev S8192x1024 : Shape := ⟨2, ![8192, 1024]⟩
abbrev S512x1024 : Shape := ⟨2, ![512, 1024]⟩
abbrev S4x2048x2048 : Shape := ⟨3, ![4, 2048, 2048]⟩
abbrev S1x128x1024 : Shape := ⟨3, ![1, 128, 1024]⟩
abbrev S1x2048x1024 : Shape := ⟨3, ![1, 2048, 1024]⟩
abbrev S1x128x2048 : Shape := ⟨3, ![1, 128, 2048]⟩
abbrev S128x1024 : Shape := ⟨2, ![128, 1024]⟩
abbrev S2048x1024 : Shape := ⟨2, ![2048, 1024]⟩
abbrev S128x2048 : Shape := ⟨2, ![128, 2048]⟩
abbrev S128 : Shape := ⟨1, ![128]⟩
abbrev S128x1 : Shape := ⟨2, ![128, 1]⟩
abbrev S1x32000 : Shape := ⟨2, ![1, 32000]⟩
abbrev S8192x32000 : Shape := ⟨2, ![8192, 32000]⟩
abbrev S3200x1024 : Shape := ⟨2, ![3200, 1024]⟩
abbrev S1x3200 : Shape := ⟨2, ![1, 3200]⟩
abbrev S512x3200 : Shape := ⟨2, ![512, 3200]⟩
abbrev S4x2048x32000 : Shape := ⟨3, ![4, 2048, 32000]⟩

abbrev nBuf : Space → Nat
  | .hbm => 34
  | .vmem => 29
  | .smem => 0
  | _ => 0

abbrev bufTy : (tb : Table) → Fin (tcTables nBuf tb) → BufTy
  | .hbm, ⟨0, _⟩ => ⟨S4x2048, .i32⟩
  | .hbm, ⟨1, _⟩ => ⟨S32000x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S32000x1024, .f32⟩
  | .hbm, ⟨6, _⟩ => ⟨S32000, .f32⟩
  | .hbm, ⟨7, _⟩ => ⟨S32000x1024, .bf16⟩
  | .hbm, ⟨8, _⟩ => ⟨S_, .i32⟩
  | .hbm, ⟨9, _⟩ => ⟨S4x2048, .i32⟩
  | .hbm, ⟨10, _⟩ => ⟨S4x2048, .i1⟩
  | .hbm, ⟨11, _⟩ => ⟨S_, .i32⟩
  | .hbm, ⟨12, _⟩ => ⟨S4x2048, .i32⟩
  | .hbm, ⟨13, _⟩ => ⟨S4x2048, .i32⟩
  | .hbm, ⟨14, _⟩ => ⟨S4x2048, .i32⟩
  | .hbm, ⟨15, _⟩ => ⟨S4x2048x1, .i32⟩
  | .hbm, ⟨16, _⟩ => ⟨S4x2048x1024, .bf16⟩
  | .hbm, ⟨17, _⟩ => ⟨S8192x1024, .bf16⟩
  | .hbm, ⟨18, _⟩ => ⟨S1024x1024, .bf16⟩
  | .hbm, ⟨19, _⟩ => ⟨S1024x1024, .bf16⟩
  | .hbm, ⟨20, _⟩ => ⟨S1024x1024, .bf16⟩
  | .hbm, ⟨21, _⟩ => ⟨S8192x1024, .bf16⟩
  | .hbm, ⟨22, _⟩ => ⟨S8192x1024, .bf16⟩
  | .hbm, ⟨23, _⟩ => ⟨S8192x1024, .bf16⟩
  | .hbm, ⟨24, _⟩ => ⟨S4x2048x1024, .bf16⟩
  | .hbm, ⟨25, _⟩ => ⟨S4x2048x1024, .bf16⟩
  | .hbm, ⟨26, _⟩ => ⟨S4x2048x1024, .bf16⟩
  | .hbm, ⟨27, _⟩ => ⟨S4x2048x1024, .bf16⟩
  | .hbm, ⟨28, _⟩ => ⟨S4x2048x2048, .f32⟩
  | .hbm, ⟨29, _⟩ => ⟨S32000x1024, .bf16⟩
  | .hbm, ⟨30, _⟩ => ⟨S1x32000, .f32⟩
  | .hbm, ⟨31, _⟩ => ⟨S8192x1024, .bf16⟩
  | .hbm, ⟨32, _⟩ => ⟨S8192x32000, .f32⟩
  | .hbm, ⟨33, _⟩ => ⟨S4x2048x32000, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x128x1024, .bf16⟩
  | .local _ .vmem, ⟨12, _⟩ => ⟨S1x128x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x2048x1024, .bf16⟩
  | .local _ .vmem, ⟨17, _⟩ => ⟨S1x128x1024, .bf16⟩
  | .local _ .vmem, ⟨18, _⟩ => ⟨S1x128x1024, .bf16⟩
  | .local _ .vmem, ⟨19, _⟩ => ⟨S1x128x2048, .f32⟩
  | .local _ .vmem, ⟨20, _⟩ => ⟨S1x128x2048, .f32⟩
  | .local _ .vmem, ⟨21, _⟩ => ⟨S512x1024, .bf16⟩
  | .local _ .vmem, ⟨22, _⟩ => ⟨S512x1024, .bf16⟩
  | .local _ .vmem, ⟨23, _⟩ => ⟨S3200x1024, .bf16⟩
  | .local _ .vmem, ⟨24, _⟩ => ⟨S3200x1024, .bf16⟩
  | .local _ .vmem, ⟨25, _⟩ => ⟨S1x3200, .f32⟩
  | .local _ .vmem, ⟨26, _⟩ => ⟨S1x3200, .f32⟩
  | .local _ .vmem, ⟨27, _⟩ => ⟨S512x3200, .f32⟩
  | .local _ .vmem, ⟨28, _⟩ => ⟨S512x3200, .f32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12_0 : Ref sig .tc := ⟨.hbm, 21, rfl⟩
abbrev main_v12_1 : Ref sig .tc := ⟨.hbm, 22, rfl⟩
abbrev main_v12_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem3_1 : DmaSem sig := 28

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x128x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x128x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![10, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S3200x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x3200 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x3200 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  bitsLt_bf16_f32 : FTy.bits .bf16 < FTy.bits .f32
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  iota_S128x2048_d0_w32 : S128x2048.Iotas .tc 32 [0]
  iota_S128x2048_d1_w32 : S128x2048.Iotas .tc 32 [1]
  reduces_S128x2048_S128 : S128x2048.Reduces [1] S128
  shapeCasts_S128_S128x1 : S128.ShapeCasts S128x1
  broadcasts_S128x1_S128x2048 : S128x1.Broadcasts S128x2048
  shapeCasts_S128x1024_S1x128x1024 : S128x1024.ShapeCasts S1x128x1024
  packedbf16_S1x128x1024_S1x128x1024_0_0_0 : (Rect.unit (s := S1x128x1024) ![0, 0, 0] S1x128x1024.size inb_S1x128x1024_S1x128x1024_0_0_0).PackedRows (EltTy.packing .bf16)
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  shapeCasts_S128x2048_S1x128x2048 : S128x2048.ShapeCasts S1x128x2048
  shapeCasts_S32000_S1x32000 : S32000.ShapeCasts S1x32000
  inb_S3200x1024_S3200x1024_0_0 : ∀ a, (![0, 0] : Fin 2 → Nat) a + S3200x1024.size a ≤ S3200x1024.size a
  h_S3200x1024 : 0 < S3200x1024.numel
  shapeCasts_S3200x1024_S3200x1024 : S3200x1024.ShapeCasts S3200x1024
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S512x3200 : S1x3200.Broadcasts S512x3200
  inb_S512x3200_S512x3200_0_0 : ∀ a, (![0, 0] : Fin 2 → Nat) a + S512x3200.size a ≤ S512x3200.size a
  h_S512x3200 : 0 < S512x3200.numel
  shapeCasts_S8192x32000_S4x2048x32000 : S8192x32000.ShapeCasts S4x2048x32000
  gather_S32000x1024_S4x2048x1_S4x2048x1024_2_0_n_n_0_2_11024_wf : GatherDims.WF S32000x1024 S4x2048x1 S4x2048x1024 [2] [0] [] [0] [] 2 ![1, 1024]
  dot_S512x1024_S1024x1024_S512x1024_1_1_0_0_n_n_wf : DotDims.WF S512x1024 S1024x1024 S512x1024 [1] [1] [0] [0] [] []
  dot_S128x1024_S2048x1024_S128x2048_1_1_0_0_n_n_wf : DotDims.WF S128x1024 S2048x1024 S128x2048 [1] [1] [0] [0] [] []
  dot_S128x2048_S2048x1024_S128x1024_1_0_0_1_n_n_wf : DotDims.WF S128x2048 S2048x1024 S128x1024 [1] [0] [0] [1] [] []
  dot_S512x1024_S3200x1024_S512x3200_1_1_0_0_n_n_wf : DotDims.WF S512x1024 S3200x1024 S512x3200 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .bf16 = 32 ∨ (Rect.block (s := S8192x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S8192x1024.size a
  hwx0_5 : ∀ i : grid0.Coords, EltTy.bits .bf16 = 32 ∨ (Rect.block (s := S8192x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S8192x1024.size a
  hwx0_6 : ∀ i : grid0.Coords, EltTy.bits .bf16 = 32 ∨ (Rect.block (s := S8192x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x1024.size a ≤ S4x2048x1024.size a
  hwx1_0 : ∀ i : grid1.Coords, EltTy.bits .bf16 = 32 ∨ (Rect.block (s := S4x2048x1024) S1x128x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S4x2048x1024.size a
  hwx1_1 : ∀ i : grid1.Coords, EltTy.bits .bf16 = 32 ∨ (Rect.block (s := S4x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S4x2048x1024.size a
  hwx1_2 : ∀ i : grid1.Coords, EltTy.bits .bf16 = 32 ∨ (Rect.block (s := S4x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x1024.size a ≤ S4x2048x1024.size a
  hwx1_3 : ∀ i : grid1.Coords, EltTy.bits .bf16 = 32 ∨ (Rect.block (s := S4x2048x1024) S1x128x1024.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x2048.size a ≤ S4x2048x2048.size a
  hwx1_4 : ∀ i : grid1.Coords, EltTy.bits .f32 = 32 ∨ (Rect.block (s := S4x2048x2048) S1x128x2048.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S8192x1024.size a
  hwx2_0 : ∀ i : grid2.Coords, EltTy.bits .bf16 = 32 ∨ (Rect.block (s := S8192x1024) S512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S3200x1024.size a ≤ S32000x1024.size a
  hwx2_1 : ∀ i : grid2.Coords, EltTy.bits .bf16 = 32 ∨ (Rect.block (s := S32000x1024) S3200x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x3200.size a ≤ S1x32000.size a
  hwx2_2 : ∀ i : grid2.Coords, EltTy.bits .f32 = 32 ∨ (Rect.block (s := S1x32000) S1x3200.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x3200.size a ≤ S8192x32000.size a
  hwx2_3 : ∀ i : grid2.Coords, EltTy.bits .f32 = 32 ∨ (Rect.block (s := S8192x32000) S512x3200.size (cc2_transform_3 i) (hinb2_3 i)).WholeWords (EltTy.packing .f32)

variable [Facts₀]

def gather_S32000x1024_S4x2048x1_S4x2048x1024_2_0_n_n_0_2_11024 : GatherDims S32000x1024 S4x2048x1 S4x2048x1024 where
  offsetDims := [2]
  collapsedSliceDims := [0]
  operandBatchingDims := []
  startIndicesBatchingDims := []
  startIndexMap := [0]
  indexVectorDim := 2
  sliceSizes := ![1, 1024]
  wf := gather_S32000x1024_S4x2048x1_S4x2048x1024_2_0_n_n_0_2_11024_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S128x1024_S2048x1024_S128x2048_1_1_0_0_n_n : DotDims S128x1024 S2048x1024 S128x2048 where
  lhsContracting := [1]
  rhsContracting := [1]
  lhsNonContracting := [0]
  rhsNonContracting := [0]
  lhsBatch := []
  rhsBatch := []
  wf := dot_S128x1024_S2048x1024_S128x2048_1_1_0_0_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf
def dot_S512x1024_S3200x1024_S512x3200_1_1_0_0_n_n : DotDims S512x1024 S3200x1024 S512x3200 where
  lhsContracting := [1]
  rhsContracting := [1]
  lhsNonContracting := [0]
  rhsNonContracting := [0]
  lhsBatch := []
  rhsBatch := []
  wf := dot_S512x1024_S3200x1024_S512x3200_1_1_0_0_n_n_wf

abbrev win0_0 : Pipeline.Window sig grid0 :=
  Pipeline.Window.ofSpec (Memref.whole main_v8) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v13) S1x128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16_0) S1x128x1024.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16_1) S1x128x2048.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v19) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S3200x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x3200.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v20) S512x3200.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x2048 : Shape := ⟨2, ![4, 2048]⟩
abbrev S32000x1024 : Shape := ⟨2, ![32000, 1024]⟩
abbrev S1024x1024 : Shape := ⟨2, ![1024, 1024]⟩
abbrev S32000 : Shape := ⟨1, ![32000]⟩
abbrev S_ : Shape := ⟨0, ![]⟩
abbrev S4x2048x1 : Shape := ⟨3, ![4, 2048, 1]⟩
abbrev S4x2048x1024 : Shape := ⟨3, ![4, 2048, 1024]⟩
abbrev S4x2048x2048 : Shape := ⟨3, ![4, 2048, 2048]⟩
abbrev S2048x2048 : Shape := ⟨2, ![2048, 2048]⟩
abbrev S1x2048x2048 : Shape := ⟨3, ![1, 2048, 2048]⟩
abbrev S4x2048x32000 : Shape := ⟨3, ![4, 2048, 32000]⟩
abbrev S1x1x32000 : Shape := ⟨3, ![1, 1, 32000]⟩

abbrev nBuf : Space → Nat
  | .hbm => 60
  | .vmem => 0
  | .smem => 0
  | _ => 0

abbrev bufTy : (tb : Table) → Fin (tcTables nBuf tb) → BufTy
  | .hbm, ⟨0, _⟩ => ⟨S4x2048, .i32⟩
  | .hbm, ⟨1, _⟩ => ⟨S32000x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S32000x1024, .f32⟩
  | .hbm, ⟨6, _⟩ => ⟨S32000, .f32⟩
  | .hbm, ⟨7, _⟩ => ⟨S_, .i32⟩
  | .hbm, ⟨8, _⟩ => ⟨S4x2048, .i32⟩
  | .hbm, ⟨9, _⟩ => ⟨S4x2048, .i1⟩
  | .hbm, ⟨10, _⟩ => ⟨S_, .i32⟩
  | .hbm, ⟨11, _⟩ => ⟨S4x2048, .i32⟩
  | .hbm, ⟨12, _⟩ => ⟨S4x2048, .i32⟩
  | .hbm, ⟨13, _⟩ => ⟨S4x2048, .i32⟩
  | .hbm, ⟨14, _⟩ => ⟨S4x2048x1, .i32⟩
  | .hbm, ⟨15, _⟩ => ⟨S4x2048x1024, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S4x2048x2048, .f32⟩
  | .hbm, ⟨20, _⟩ => ⟨S_, .f32⟩
  | .hbm, ⟨21, _⟩ => ⟨S_, .f32⟩
  | .hbm, ⟨22, _⟩ => ⟨S4x2048x2048, .f32⟩
  | .hbm, ⟨23, _⟩ => ⟨S4x2048x2048, .f32⟩
  | .hbm, ⟨24, _⟩ => ⟨S_, .i1⟩
  | .hbm, ⟨25, _⟩ => ⟨S2048x2048, .i1⟩
  | .hbm, ⟨26, _⟩ => ⟨S2048x2048, .i32⟩
  | .hbm, ⟨27, _⟩ => ⟨S_, .i32⟩
  | .hbm, ⟨28, _⟩ => ⟨S2048x2048, .i32⟩
  | .hbm, ⟨29, _⟩ => ⟨S2048x2048, .i32⟩
  | .hbm, ⟨30, _⟩ => ⟨S2048x2048, .i32⟩
  | .hbm, ⟨31, _⟩ => ⟨S2048x2048, .i1⟩
  | .hbm, ⟨32, _⟩ => ⟨S_, .i1⟩
  | .hbm, ⟨33, _⟩ => ⟨S2048x2048, .i1⟩
  | .hbm, ⟨34, _⟩ => ⟨S2048x2048, .i1⟩
  | .hbm, ⟨35, _⟩ => ⟨S1x2048x2048, .i1⟩
  | .hbm, ⟨36, _⟩ => ⟨S_, .f32⟩
  | .hbm, ⟨37, _⟩ => ⟨S_, .f32⟩
  | .hbm, ⟨38, _⟩ => ⟨S4x2048x2048, .i1⟩
  | .hbm, ⟨39, _⟩ => ⟨S4x2048x2048, .f32⟩
  | .hbm, ⟨40, _⟩ => ⟨S4x2048x2048, .f32⟩
  | .hbm, ⟨41, _⟩ => ⟨S_, .f32⟩
  | .hbm, ⟨42, _⟩ => ⟨S4x2048, .f32⟩
  | .hbm, ⟨43, _⟩ => ⟨S_, .f32⟩
  | .hbm, ⟨44, _⟩ => ⟨S4x2048, .f32⟩
  | .hbm, ⟨45, _⟩ => ⟨S4x2048, .f32⟩
  | .hbm, ⟨46, _⟩ => ⟨S4x2048x1, .f32⟩
  | .hbm, ⟨47, _⟩ => ⟨S4x2048x2048, .f32⟩
  | .hbm, ⟨48, _⟩ => ⟨S4x2048x2048, .f32⟩
  | .hbm, ⟨49, _⟩ => ⟨S4x2048x2048, .f32⟩
  | .hbm, ⟨50, _⟩ => ⟨S_, .f32⟩
  | .hbm, ⟨51, _⟩ => ⟨S4x2048, .f32⟩
  | .hbm, ⟨52, _⟩ => ⟨S4x2048x1, .f32⟩
  | .hbm, ⟨53, _⟩ => ⟨S4x2048x2048, .f32⟩
  | .hbm, ⟨54, _⟩ => ⟨S4x2048x2048, .f32⟩
  | .hbm, ⟨55, _⟩ => ⟨S4x2048x1024, .f32⟩
  | .hbm, ⟨56, _⟩ => ⟨S4x2048x32000, .f32⟩
  | .hbm, ⟨57, _⟩ => ⟨S1x1x32000, .f32⟩
  | .hbm, ⟨58, _⟩ => ⟨S4x2048x32000, .f32⟩
  | .hbm, ⟨59, _⟩ => ⟨S4x2048x32000, .f32⟩
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_c_0 : Ref sig .tc := ⟨.hbm, 32, rfl⟩
abbrev main_call0_v5 : Ref sig .tc := ⟨.hbm, 33, rfl⟩
abbrev main_v15 : Ref sig .tc := ⟨.hbm, 34, rfl⟩
abbrev main_v16 : Ref sig .tc := ⟨.hbm, 35, rfl⟩
abbrev main_cst_2 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_cst_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_5 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩

abbrev nD : Nat := 1
abbrev τ : Topo := Topo.v7x

variable {F : FTy → Type} [FloatOps F]

class Facts₀ : Prop where
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S4x2048x2048_0_1_2 : S1x2048x2048.BroadcastsInDim S4x2048x2048 (![0, 1, 2] : Fin 3 → Fin S4x2048x2048.rank)
  reducesTo_S4x2048x2048_S4x2048_d2 : S4x2048x2048.ReducesTo [2] S4x2048
  h_S_ : 0 < S_.numel
  bcast_S4x2048x1_S4x2048x2048_0_1_2 : S4x2048x1.BroadcastsInDim S4x2048x2048 (![0, 1, 2] : Fin 3 → Fin S4x2048x2048.rank)
  bcast_S32000_S1x1x32000_2 : S32000.BroadcastsInDim S1x1x32000 (![2] : Fin 1 → Fin S1x1x32000.rank)
  bcast_S1x1x32000_S4x2048x32000_0_1_2 : S1x1x32000.BroadcastsInDim S4x2048x32000 (![0, 1, 2] : Fin 3 → Fin S4x2048x32000.rank)
  gather_S32000x1024_S4x2048x1_S4x2048x1024_2_0_n_n_0_2_11024_wf : GatherDims.WF S32000x1024 S4x2048x1 S4x2048x1024 [2] [0] [] [0] [] 2 ![1, 1024]
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]
  dot_S4x2048x1024_S32000x1024_S4x2048x32000_2_1_01_0_n_n_wf : DotDims.WF S4x2048x1024 S32000x1024 S4x2048x32000 [2] [1] [0, 1] [0] [] []

variable [Facts₀]

def gather_S32000x1024_S4x2048x1_S4x2048x1024_2_0_n_n_0_2_11024 : GatherDims S32000x1024 S4x2048x1 S4x2048x1024 where
  offsetDims := [2]
  collapsedSliceDims := [0]
  operandBatchingDims := []
  startIndicesBatchingDims := []
  startIndexMap := [0]
  indexVectorDim := 2
  sliceSizes := ![1, 1024]
  wf := gather_S32000x1024_S4x2048x1_S4x2048x1024_2_0_n_n_0_2_11024_wf
def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf
def dot_S4x2048x1024_S32000x1024_S4x2048x32000_2_1_01_0_n_n : DotDims S4x2048x1024 S32000x1024 S4x2048x32000 where
  lhsContracting := [2]
  rhsContracting := [1]
  lhsNonContracting := [0, 1]
  rhsNonContracting := [0]
  lhsBatch := []
  rhsBatch := []
  wf := dot_S4x2048x1024_S32000x1024_S4x2048x32000_2_1_01_0_n_n_wf

class Facts : Prop extends Facts₀ where

variable [Facts]
-- ==== Proof.KernelRun.lean ====
/-
  The kernel program's run with EVERY buffer named: every weakly fair execution of @main terminates without a fault,
  and each unscoped buffer ends at the contents the fold of @main's segments gives it (the host stretches' results,
  and each region's arrays at what its write-backs leave). The frame claim keeps only the argument arrays of this
  post; the value claim reads the two result arrays off it.
-/
import proofs.«169576_j4982162063789_2_alg».proof.Proof.KernelIdealFrameP

set_option maxRecDepth 16384

noncomputable section

namespace Cert.KernelIdeal.GenP

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over @main's seven segments, as in the frame, with the last thread state read against the final state
    at every unscoped buffer. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- A result buffer after the run. -/
theorem run_all_at {r : PUnit × MemSt nD τ sig (Elt F)}
    (h : ∀ c : Dev nD, ∀ b ∈ Pipeline.ucRefs τ sig, r.2.mem (((c : Thread nD τ)).1, b) = W7 m ρ c b)
    (c : Dev nD) (b : Ref sig .tc) (hb : ¬ (Proc.devRef .tc b : DevRef τ sig).isScoped) :
    r.2.mem ((c.tc : Thread nD τ).loc b) = W7 m ρ c (Proc.devRef .tc b) :=
  h c _ (mem_uc b hb)

end Cert.KernelIdeal.GenP

end
-- ==== Proof.Spec.lean ====
/-
  The mathematics both programs compute, over the extended reals, index by index.

  A token table is looked up (the lookup itself is kept as an array `X` of shape [4, 2048, 1024]); three projections
  `x · Wᵀ` give queries, keys and values; a score is the inner product of a query row with a key row, rescaled by a
  function `sc`; a key position after the query position scores `⊥`; each row of scores becomes a row of weights by
  the softmax `exp (f k − max f) / ∑ exp (f k' − max f)`; the weights average the value rows; a last projection
  against the output table plus a bias gives the logits.
-/
import Idealize.ShloMosaic.Lib.ValueIdx
import Idealize.ShloMosaic.PureOps.Ideal.Laws

noncomputable section

open scoped BigOperators

namespace Cert.Attn

open Idealize.ShloMosaic Idealize.ShloMosaic.ValueIdx

abbrev Arr3 (a b c : Nat) : Type := (⟨3, ![a, b, c]⟩ : Shape).Idx → EReal
abbrev Arr2 (a b : Nat) : Type := (⟨2, ![a, b]⟩ : Shape).Idx → EReal
abbrev Arr1 (a : Nat) : Type := (⟨1, ![a]⟩ : Shape).Idx → EReal

/-- The largest entry of a row (`⊥` for the empty row). -/
def rowMax {n : Nat} (f : Fin n → EReal) : EReal := (Finset.univ : Finset (Fin n)).fold max ⊥ f

/-- One row of weights from one row of scores: `exp (f k − max f)` over the sum of these. -/
def rowSoftmax {n : Nat} (f : Fin n → EReal) : Fin n → EReal :=
  fun k => Ideal.div (Ideal.exp (f k - rowMax f)) (∑ k' : Fin n, Ideal.exp (f k' - rowMax f))

/-- `x · Wᵀ`: entry `(b, s, e)` is the inner product of row `(b, s)` of `X` with row `e` of `W`. -/
def proj {B S D E : Nat} (X : Arr3 B S D) (W : Arr2 E D) : Arr3 B S E :=
  fun i => ∑ d : Fin D, X (ix3 (i 0) (i 1) d) * W (ix2 (i 2) d)

/-- The score of key position `k` for query position `q` of batch `b`: the rescaled inner product when `k ≤ q`,
    `⊥` otherwise. -/
def maskedScore {B S D : Nat} (sc : EReal → EReal) (Q K : Arr3 B S D) (b : Fin B) (q k : Fin S) : EReal :=
  if k.val ≤ q.val then sc (∑ d : Fin D, Q (ix3 b q d) * K (ix3 b k d)) else ⊥

/-- The attention weights: row `(b, q)` is the softmax of that row's masked scores. -/
def attn {B S D : Nat} (sc : EReal → EReal) (Q K : Arr3 B S D) : Arr3 B S S :=
  fun i => rowSoftmax (fun k => maskedScore sc Q K (i 0) (i 1) k) (i 2)

/-- The weighted average of the value rows. -/
def ctx {B S D : Nat} (A : Arr3 B S S) (V : Arr3 B S D) : Arr3 B S D :=
  fun i => ∑ k : Fin S, A (ix3 (i 0) (i 1) k) * V (ix3 (i 0) k (i 2))

/-- The last projection plus its bias. -/
def logits {B S D N : Nat} (O : Arr3 B S D) (W : Arr2 N D) (bias : Arr1 N) : Arr3 B S N :=
  fun i => (∑ d : Fin D, O (ix3 (i 0) (i 1) d) * W (ix2 (i 2) d)) + bias (ix1 (i 2))

/-- The same product on matrices: entry `(r, e)` is the inner product of row `r` of `x` with row `e` of `w`. -/
def proj2 {R D E : Nat} (x : Arr2 R D) (w : Arr2 E D) : Arr2 R E :=
  fun i => ∑ d : Fin D, x (ix2 (i 0) d) * w (ix2 (i 1) d)

/-- … plus a bias stored as a one-row matrix. -/
def affine2 {R D E : Nat} (x : Arr2 R D) (w : Arr2 E D) (bias : Arr2 1 E) : Arr2 R E :=
  fun i => (∑ d : Fin D, x (ix2 (i 0) d) * w (ix2 (i 1) d)) + bias (ix2 (0 : Fin 1) (i 1))

theorem proj2_apply {R D E : Nat} (x : Arr2 R D) (w : Arr2 E D) (r : Fin R) (e : Fin E) :
    proj2 x w (ix2 r e) = ∑ d : Fin D, x (ix2 r d) * w (ix2 e d) := rfl

theorem affine2_apply {R D E : Nat} (x : Arr2 R D) (w : Arr2 E D) (bias : Arr2 1 E) (r : Fin R) (e : Fin E) :
    affine2 x w bias (ix2 r e) = (∑ d : Fin D, x (ix2 r d) * w (ix2 e d)) + bias (ix2 (0 : Fin 1) e) := rfl

theorem proj_apply {B S D E : Nat} (X : Arr3 B S D) (W : Arr2 E D) (b : Fin B) (s : Fin S) (e : Fin E) :
    proj X W (ix3 b s e) = ∑ d : Fin D, X (ix3 b s d) * W (ix2 e d) := rfl

theorem attn_apply {B S D : Nat} (sc : EReal → EReal) (Q K : Arr3 B S D) (b : Fin B) (q k : Fin S) :
    attn sc Q K (ix3 b q k) = rowSoftmax (fun k' => maskedScore sc Q K b q k') k := rfl

theorem ctx_apply {B S D : Nat} (A : Arr3 B S S) (V : Arr3 B S D) (b : Fin B) (q : Fin S) (d : Fin D) :
    ctx A V (ix3 b q d) = ∑ k : Fin S, A (ix3 b q k) * V (ix3 b k d) := rfl

theorem logits_apply {B S D N : Nat} (O : Arr3 B S D) (W : Arr2 N D) (bias : Arr1 N) (b : Fin B) (s : Fin S) (v : Fin N) :
    logits O W bias (ix3 b s v) = (∑ d : Fin D, O (ix3 b s d) * W (ix2 v d)) + bias (ix1 v) := rfl

/-- The two rescalings of a score: the product with `1/32` and the quotient by `√1024`. -/
def scMul : EReal → EReal := fun x => x * Ideal.ofBits .f32 0x3D000000#32
def scDiv : EReal → EReal := fun x => Ideal.div x (Ideal.sqrt (Ideal.ofBits .f32 0x44800000#32))

end Cert.Attn

end
-- ==== Proof.Consts.lean ====
/-
  The float constants the two programs spell, as the extended reals they denote, and the one law that joins the two
  spellings of a score's rescaling: the quotient by `√1024 = 32` is the product with `1/32`, on every extended
  real. Also: the word `-∞` denotes `⊥`, the zero word `0`.
-/
import Idealize.ShloMosaic.PureOps.Ideal
import proofs.«169576_j4982162063789_2_alg».proof.Proof.Spec

noncomputable section

namespace Cert.Attn

open Idealize.ShloMosaic

theorem ofBits_1024 : Ideal.ofBits .f32 0x44800000#32 = ((1024 : ℝ) : EReal) := by
  simp [Ideal.ofBits, Ideal.ieee, -EReal.coe_mul]; norm_num

theorem ofBits_inv32 : Ideal.ofBits .f32 0x3D000000#32 = ((1 / 32 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

theorem ofBits_zero : Ideal.ofBits .f32 0x00000000#32 = (0 : EReal) := by
  simp [Ideal.ofBits, Ideal.ieee]

theorem sqrt_1024 : Real.sqrt 1024 = 32 := by
  rw [show (1024 : ℝ) = 32 ^ 2 by norm_num]
  exact Real.sqrt_sq (by norm_num)

/-- Dividing a score by `√1024` is multiplying it by `1/32`. -/
theorem scDiv_eq_scMul : scDiv = scMul := by
  funext x
  unfold scDiv scMul
  rw [ofBits_1024, ofBits_inv32, Ideal.sqrt_coe, if_neg (by norm_num), sqrt_1024,
    Ideal.div_coe (by norm_num : (32 : ℝ) ≠ 0)]

end Cert.Attn

end
-- ==== Proof.LibRowGroups.lean ====
/-
  Arrays whose rows are grouped, and broadcasts along leading unit axes, each read at an index and generic in the
  sizes.

  * A `[1, b, c]` array broadcast to `[a, b, c]` reads the operand at `(0, g, j)`; a `[1, 1, c]` array broadcast
    to `[a, b, c]` reads it at `(0, 0, j)`: the leading axes are the repeated ones.
  * An `[a, b, c]` array whose two leading axes are merged into the rows of an `[n, c]` matrix reads, at row
    `p * b + q`, the array at `(p, q, ·)`; the same regrouping undone reads the matrix at row `p * b + q`.
  * An `[a, n, c]` array whose middle axis is split as `[a, b, d, c]` reads, at `(i, p, q, j)`, the array at
    `(i, p * d + q, j)`.
-/
import Idealize.ShloMosaic.Lib.ValueIdx
import Idealize.ShloMosaic.Lib.Pipeline.Value

noncomputable section

namespace Cert.LibRowGroups

open Idealize.ShloMosaic Idealize.ShloMosaic.ValueIdx

variable {α : Type}

/-- A `[1, b, c]` array broadcast to `[a, b, c]` reads, at `(i, g, j)`, the operand at `(0, g, j)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (g : Fin b) (j : Fin c) :
    broadcastTo ⟨3, ![a, b, c]⟩ v h (ix3 i g j) = v (ix3 (0 : Fin 1) g j) := by
  refine broadcastTo_apply v h (ix3 i g j) (ix3 (0 : Fin 1) g j) fun ax => ?_
  match ax with
  | ⟨0, _⟩ => rfl
  | ⟨1, _⟩ =>
    show g.val = if b = 1 then 0 else g.val
    split
    · have := g.isLt; omega
    · rfl
  | ⟨2, _⟩ =>
    show j.val = if c = 1 then 0 else j.val
    split
    · have := j.isLt; omega
    · rfl

/-- A `[1, 1, c]` array broadcast to `[a, b, c]` reads, at `(i, g, j)`, the operand at `(0, 0, j)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (g : Fin b) (j : Fin c) :
    broadcastTo ⟨3, ![a, b, c]⟩ v h (ix3 i g j) = v (ix3 (0 : Fin 1) (0 : Fin 1) j) := by
  refine broadcastTo_apply v h (ix3 i g j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-- An `[a, b, c]` array with its two leading axes merged into the rows of an `[n, c]` matrix reads, at row
    `p * b + q` and column `j`, the array at `(p, q, j)`. -/
theorem shapeCast_abc_nc_apply {a b c n : ℕ} (x : (⟨3, ![a, b, c]⟩ : Shape).Idx → α)
    (h : (⟨3, ![a, b, c]⟩ : Shape).ShapeCasts ⟨2, ![n, c]⟩) (r : Fin n) (j : Fin c)
    (p : Fin a) (q : Fin b) (hr : r.val = p.val * b + q.val) :
    shapeCast ⟨2, ![n, c]⟩ x h (ix2 r j) = x (ix3 p q j) :=
  shapeCast_apply x h _ _ (by
    rw [Shape.rowMajor_val_three, Shape.rowMajor_val_two]
    show (p.val * b + q.val) * c + j.val = r.val * c + j.val
    rw [hr])

/-- An `[n, c]` matrix with its rows regrouped as `[a, b, c]` reads, at `(p, q, j)`, the matrix at row
    `p * b + q` and column `j`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (j : Fin c)
    (r : Fin n) (hr : r.val = p.val * b + q.val) :
    shapeCast ⟨3, ![a, b, c]⟩ x h (ix3 p q j) = x (ix2 r j) :=
  shapeCast_apply x h _ _ (by
    rw [Shape.rowMajor_val_three, Shape.rowMajor_val_two]
    show r.val * c + j.val = (p.val * b + q.val) * c + j.val
    rw [hr])

/-- An `[a, n, c]` array with its middle axis split as `[a, b, d, c]` (`n = b * d`) reads, at `(i, p, q, j)`, the
    array at `(i, p * d + q, j)`. -/
theorem shapeCast_anc_abdc_apply {a b d c n : ℕ} (x : (⟨3, ![a, n, c]⟩ : Shape).Idx → α)
    (h : (⟨3, ![a, n, c]⟩ : Shape).ShapeCasts ⟨4, ![a, b, d, c]⟩) (i : Fin a) (p : Fin b) (q : Fin d) (j : Fin c)
    (r : Fin n) (hn : n = b * d) (hr : r.val = p.val * d + q.val) :
    shapeCast ⟨4, ![a, b, d, c]⟩ x h (ix4 i p q j) = x (ix3 i r j) :=
  shapeCast_apply x h _ _ (by
    rw [Shape.rowMajor_val_four, Shape.rowMajor_val_three]
    show (i.val * n + r.val) * c + j.val = ((i.val * b + p.val) * d + q.val) * c + j.val
    rw [hr, hn, Nat.add_mul (i.val * b) p.val d, Nat.mul_assoc, Nat.add_assoc])

end Cert.LibRowGroups

end
-- ==== Proof.KernelGlue.lean ====
/-
  The kernel program's two result buffers after its run, as the specification's functions of the argument arrays.

  The program is a fold: a stretch of host operations, a tiled region, a stretch, a region, a stretch, a region, and a
  last reshape. Over the extended reals a change of float format is the identity, so the first stretch leaves the
  looked-up token rows `X` with the batch and position axes merged into 8192 rows, and the three weight matrices as
  they were. Region 0 leaves the three row-by-row products of these (its value facts, hypotheses here); splitting the
  rows again gives `proj X W`, because row `b · 2048 + s` of the merged array is row `(b, s)`. Region 1 leaves `attn`
  and `ctx` of the projections (hypotheses). The third stretch merges the rows of the averages and keeps the output
  table and the bias, the latter as a one-row matrix; nothing has written either since the launch. Region 2 leaves the
  affine map of the merged rows (hypothesis), and the last reshape splits the rows: `logits`. The weights buffer is
  written by nothing after region 1.
-/
import proofs.«169576_j4982162063789_2_alg».proof.Proof.KernelIdealFrameP
import proofs.«169576_j4982162063789_2_alg».proof.Proof.Gen.ReferenceIdeal.Read
import proofs.«169576_j4982162063789_2_alg».proof.Proof.Consts
import proofs.«169576_j4982162063789_2_alg».proof.Proof.LibRowGroups
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.GenP

open Idealize.ShloMosaic Idealize.ShloMosaic.TcCoe Idealize.SL.Sem Cert.KernelIdeal Cert.KernelIdeal.Gen
open Idealize.ShloMosaic.Pipeline Idealize.ShloMosaic.ValueIdx Cert.Attn

variable (m : (ℓ : Loc nD τ sig) → Buf (Elt Ideal) ℓ) (ρ : Dev nD → PrngReg)

/-- The TensorCore's buffer contents at a region's entry, core by core. -/
abbrev VT := (c : Dev nD) → (b : Ref sig .tc) → Buf (Elt Ideal) ((c : Thread nD τ).loc b)

/-- The looked-up token rows: the reference's lookup of the two argument arrays, kept closed. -/
abbrev X (c : Dev nD) : (⟨3, ![4, 2048, 1024]⟩ : Shape).Idx → EReal :=
  Cert.ReferenceIdeal.Read.val_main_v6 (F := Ideal) (m ((c.tc : Thread nD τ).loc main_arg0)) (m ((c.tc : Thread nD τ).loc main_arg1))

/-- After the first host stretch `main_v8` holds the token rows with the batch and position axes merged. -/
theorem V1_v8 (c : Dev nD) :
    (V1 m ρ c main_v8 : S8192x1024.Idx → EReal)
      = shapeCast S8192x1024 (X m c) shapeCasts_S4x2048x1024_S8192x1024 := by
  show StableHlo.after hostOps0 _ (Proc.devRef .tc main_v8) = _
  after_results
  rfl

theorem V1_v9 (c : Dev nD) :
    (V1 m ρ c main_v9 : S1024x1024.Idx → EReal) = m ((c.tc : Thread nD τ).loc main_arg2) := by
  show StableHlo.after hostOps0 _ (Proc.devRef .tc main_v9) = _
  after_results
  rfl

theorem V1_v10 (c : Dev nD) :
    (V1 m ρ c main_v10 : S1024x1024.Idx → EReal) = m ((c.tc : Thread nD τ).loc main_arg3) := by
  show StableHlo.after hostOps0 _ (Proc.devRef .tc main_v10) = _
  after_results
  rfl

theorem V1_v11 (c : Dev nD) :
    (V1 m ρ c main_v11 : S1024x1024.Idx → EReal) = m ((c.tc : Thread nD τ).loc main_arg4) := by
  show StableHlo.after hostOps0 _ (Proc.devRef .tc main_v11) = _
  after_results
  rfl

/-- Merging the batch and position axes, projecting the rows, and splitting the axes again is the projection of the
    rank-3 array: row `b · 2048 + s` of the merged array is row `(b, s)`. -/
theorem regroup_proj (Y : Arr3 4 2048 1024) (W : Arr2 1024 1024) :
    shapeCast S4x2048x1024 (proj2 (shapeCast S8192x1024 Y shapeCasts_S4x2048x1024_S8192x1024) W)
        shapeCasts_S8192x1024_S4x2048x1024
      = proj Y W := by
  funext i
  obtain ⟨b, s, e, rfl⟩ : ∃ (b : Fin 4) (s : Fin 2048) (e : Fin 1024), i = ix3 b s e := ⟨i 0, i 1, i 2, eq_ix3 i⟩
  have hr : b.val * 2048 + s.val < 8192 := by have := b.isLt; have := s.isLt; omega
  refine (Cert.LibRowGroups.shapeCast_nc_abc_apply _ _ b s e ⟨b.val * 2048 + s.val, hr⟩ rfl).trans ?_
  rw [proj2_apply, proj_apply]
  refine Finset.sum_congr rfl fun d _ => ?_
  exact congrArg (· * W (ix2 e d))
    (Cert.LibRowGroups.shapeCast_abc_nc_apply Y _ ⟨b.val * 2048 + s.val, hr⟩ d b s rfl)

/-- At region 0's exit its three output arrays hold the projections of the merged token rows. -/
theorem W2_v12_0 (h04 : ∀ (V : VT) (c : Dev nD), (dat0 V c).arrAt 4 cfg0.N = proj2 (V c main_v8) (V c main_v9)) (c : Dev nD) :
    (W2 m ρ c (Proc.devRef .tc main_v12_0) : S8192x1024.Idx → EReal)
      = proj2 (shapeCast S8192x1024 (X m c) shapeCasts_S4x2048x1024_S8192x1024) (m ((c.tc : Thread nD τ).loc main_arg2)) := by
  refine (W2_arr m ρ c 4).trans ((h04 (V1 m ρ) c).trans ?_)
  rw [V1_v8, V1_v9]

theorem W2_v12_1 (h05 : ∀ (V : VT) (c : Dev nD), (dat0 V c).arrAt 5 cfg0.N = proj2 (V c main_v8) (V c main_v10)) (c : Dev nD) :
    (W2 m ρ c (Proc.devRef .tc main_v12_1) : S8192x1024.Idx → EReal)
      = proj2 (shapeCast S8192x1024 (X m c) shapeCasts_S4x2048x1024_S8192x1024) (m ((c.tc : Thread nD τ).loc main_arg3)) := by
  refine (W2_arr m ρ c 5).trans ((h05 (V1 m ρ) c).trans ?_)
  rw [V1_v8, V1_v10]

theorem W2_v12_2 (h06 : ∀ (V : VT) (c : Dev nD), (dat0 V c).arrAt 6 cfg0.N = proj2 (V c main_v8) (V c main_v11)) (c : Dev nD) :
    (W2 m ρ c (Proc.devRef .tc main_v12_2) : S8192x1024.Idx → EReal)
      = proj2 (shapeCast S8192x1024 (X m c) shapeCasts_S4x2048x1024_S8192x1024) (m ((c.tc : Thread nD τ).loc main_arg4)) := by
  refine (W2_arr m ρ c 6).trans ((h06 (V1 m ρ) c).trans ?_)
  rw [V1_v8, V1_v11]

/-- At region 1's entry the queries, keys and values are the projections of the token rows. -/
theorem V3_v13 (h04 : ∀ (V : VT) (c : Dev nD), (dat0 V c).arrAt 4 cfg0.N = proj2 (V c main_v8) (V c main_v9)) (c : Dev nD) :
    (V3 m ρ c main_v13 : S4x2048x1024.Idx → EReal) = proj (X m c) (m ((c.tc : Thread nD τ).loc main_arg2)) := by
  have e : (V3 m ρ c main_v13 : S4x2048x1024.Idx → EReal)
      = shapeCast S4x2048x1024 (W2 m ρ c (Proc.devRef .tc main_v12_0)) shapeCasts_S8192x1024_S4x2048x1024 := by
    show StableHlo.after hostOps1 _ (Proc.devRef .tc main_v13) = _
    after_results
    rfl
  rw [e, W2_v12_0 m ρ h04 c, regroup_proj]

theorem V3_v14 (h05 : ∀ (V : VT) (c : Dev nD), (dat0 V c).arrAt 5 cfg0.N = proj2 (V c main_v8) (V c main_v10)) (c : Dev nD) :
    (V3 m ρ c main_v14 : S4x2048x1024.Idx → EReal) = proj (X m c) (m ((c.tc : Thread nD τ).loc main_arg3)) := by
  have e : (V3 m ρ c main_v14 : S4x2048x1024.Idx → EReal)
      = shapeCast S4x2048x1024 (W2 m ρ c (Proc.devRef .tc main_v12_1)) shapeCasts_S8192x1024_S4x2048x1024 := by
    show StableHlo.after hostOps1 _ (Proc.devRef .tc main_v14) = _
    after_results
    rfl
  rw [e, W2_v12_1 m ρ h05 c, regroup_proj]

theorem V3_v15 (h06 : ∀ (V : VT) (c : Dev nD), (dat0 V c).arrAt 6 cfg0.N = proj2 (V c main_v8) (V c main_v11)) (c : Dev nD) :
    (V3 m ρ c main_v15 : S4x2048x1024.Idx → EReal) = proj (X m c) (m ((c.tc : Thread nD τ).loc main_arg4)) := by
  have e : (V3 m ρ c main_v15 : S4x2048x1024.Idx → EReal)
      = shapeCast S4x2048x1024 (W2 m ρ c (Proc.devRef .tc main_v12_2)) shapeCasts_S8192x1024_S4x2048x1024 := by
    show StableHlo.after hostOps1 _ (Proc.devRef .tc main_v15) = _
    after_results
    rfl
  rw [e, W2_v12_2 m ρ h06 c, regroup_proj]

/-- At region 1's exit: the attention weights and the weighted value rows. -/
theorem W4_v16_1 (h04 : ∀ (V : VT) (c : Dev nD), (dat0 V c).arrAt 4 cfg0.N = proj2 (V c main_v8) (V c main_v9)) (h05 : ∀ (V : VT) (c : Dev nD), (dat0 V c).arrAt 5 cfg0.N = proj2 (V c main_v8) (V c main_v10)) (h14 : ∀ (V : VT) (c : Dev nD), (dat1 V c).arrAt 4 cfg1.N = attn scMul (V c main_v13) (V c main_v14)) (c : Dev nD) :
    (W4 m ρ c (Proc.devRef .tc main_v16_1) : S4x2048x2048.Idx → EReal)
      = attn scMul (proj (X m c) (m ((c.tc : Thread nD τ).loc main_arg2))) (proj (X m c) (m ((c.tc : Thread nD τ).loc main_arg3))) := by
  refine (W4_arr m ρ c 4).trans ((h14 (V3 m ρ) c).trans ?_)
  rw [V3_v13 m ρ h04 c, V3_v14 m ρ h05 c]

theorem W4_v16_0 (h04 : ∀ (V : VT) (c : Dev nD), (dat0 V c).arrAt 4 cfg0.N = proj2 (V c main_v8) (V c main_v9)) (h05 : ∀ (V : VT) (c : Dev nD), (dat0 V c).arrAt 5 cfg0.N = proj2 (V c main_v8) (V c main_v10)) (h06 : ∀ (V : VT) (c : Dev nD), (dat0 V c).arrAt 6 cfg0.N = proj2 (V c main_v8) (V c main_v11)) (h13 : ∀ (V : VT) (c : Dev nD), (dat1 V c).arrAt 3 cfg1.N = ctx (attn scMul (V c main_v13) (V c main_v14)) (V c main_v15)) (c : Dev nD) :
    (W4 m ρ c (Proc.devRef .tc main_v16_0) : S4x2048x1024.Idx → EReal)
      = ctx (attn scMul (proj (X m c) (m ((c.tc : Thread nD τ).loc main_arg2))) (proj (X m c) (m ((c.tc : Thread nD τ).loc main_arg3)))) (proj (X m c) (m ((c.tc : Thread nD τ).loc main_arg4))) := by
  refine (W4_arr m ρ c 3).trans ((h13 (V3 m ρ) c).trans ?_)
  rw [V3_v13 m ρ h04 c, V3_v14 m ρ h05 c, V3_v15 m ρ h06 c]

/-! The output table and the bias are written by no host operation and by no region before region 2's entry: there
    they still hold their launch contents. -/

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-- The weights array is written by nothing after region 1. -/
theorem W7_v16_1 (c : Dev nD) : W7 m ρ c (Proc.devRef .tc main_v16_1) = W4 m ρ c (Proc.devRef .tc main_v16_1) :=
  calc W7 m ρ c (Proc.devRef .tc main_v16_1)
    _ = W6 m ρ c (Proc.devRef .tc main_v16_1) := StableHlo.after_of_forall_not_mem (b := Proc.devRef .tc main_v16_1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v16_1) := W6_of_ne m ρ c main_v16_1 (by decide)
    _ = W4 m ρ c (Proc.devRef .tc main_v16_1) := StableHlo.after_of_forall_not_mem (b := Proc.devRef .tc main_v16_1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

/-- At region 2's entry: the weighted value rows with the batch and position axes merged, the output table, and the
    bias as a one-row matrix. -/
theorem V5_v19 (c : Dev nD) :
    (V5 m ρ c main_v19 : S8192x1024.Idx → EReal)
      = shapeCast S8192x1024 (W4 m ρ c (Proc.devRef .tc main_v16_0)) shapeCasts_S4x2048x1024_S8192x1024 := by
  show StableHlo.after hostOps2 _ (Proc.devRef .tc main_v19) = _
  after_results
  rfl

theorem V5_v17 (c : Dev nD) :
    (V5 m ρ c main_v17 : S32000x1024.Idx → EReal) = (m ((c.tc : Thread nD τ).loc main_arg5)) := by
  have e : (V5 m ρ c main_v17 : S32000x1024.Idx → EReal) = W4 m ρ c (Proc.devRef .tc main_arg5) := by
    show StableHlo.after hostOps2 _ (Proc.devRef .tc main_v17) = _
    after_results
    rfl
  rw [e]; exact W4_main_arg5 m ρ c

theorem V5_v18 (c : Dev nD) :
    (V5 m ρ c main_v18 : S1x32000.Idx → EReal) = shapeCast S1x32000 (m ((c.tc : Thread nD τ).loc main_arg6)) shapeCasts_S32000_S1x32000 := by
  have e : (V5 m ρ c main_v18 : S1x32000.Idx → EReal)
      = shapeCast S1x32000 (W4 m ρ c (Proc.devRef .tc main_arg6)) shapeCasts_S32000_S1x32000 := by
    show StableHlo.after hostOps2 _ (Proc.devRef .tc main_v18) = _
    after_results
    rfl
  rw [e, W4_main_arg6 m ρ c]

/-- Merging the batch and position axes of `O`, multiplying the rows against the output table, adding the bias held
    as a one-row matrix, and splitting the axes again is `logits O W bias`. -/
theorem regroup_logits (O : Arr3 4 2048 1024) (W : Arr2 32000 1024) (bias : Arr1 32000) :
    shapeCast S4x2048x32000
        (affine2 (shapeCast S8192x1024 O shapeCasts_S4x2048x1024_S8192x1024) W
          (shapeCast S1x32000 bias shapeCasts_S32000_S1x32000))
        shapeCasts_S8192x32000_S4x2048x32000
      = logits O W bias := by
  funext i
  obtain ⟨b, s, v, rfl⟩ : ∃ (b : Fin 4) (s : Fin 2048) (v : Fin 32000), i = ix3 b s v := ⟨i 0, i 1, i 2, eq_ix3 i⟩
  have hr : b.val * 2048 + s.val < 8192 := by have := b.isLt; have := s.isLt; omega
  refine (Cert.LibRowGroups.shapeCast_nc_abc_apply _ _ b s v ⟨b.val * 2048 + s.val, hr⟩ rfl).trans ?_
  rw [affine2_apply, logits_apply]
  congr 1
  · refine Finset.sum_congr rfl fun d _ => ?_
    exact congrArg (· * W (ix2 v d))
      (Cert.LibRowGroups.shapeCast_abc_nc_apply O _ ⟨b.val * 2048 + s.val, hr⟩ d b s rfl)
  · exact shapeCast_a_1a_apply bias _ (0 : Fin 1) v

/-- The kernel program's weights buffer after the run. -/
theorem W7_weights
    (h04 : ∀ (V : VT) (c : Dev nD), (dat0 V c).arrAt 4 cfg0.N = proj2 (V c main_v8) (V c main_v9))
    (h05 : ∀ (V : VT) (c : Dev nD), (dat0 V c).arrAt 5 cfg0.N = proj2 (V c main_v8) (V c main_v10))
    (h14 : ∀ (V : VT) (c : Dev nD), (dat1 V c).arrAt 4 cfg1.N = attn scMul (V c main_v13) (V c main_v14))
    (c : Dev nD) :
    W7 m ρ c (Proc.devRef .tc main_v16_1)
      = attn scMul
          (proj (Cert.ReferenceIdeal.Read.val_main_v6 (F := Ideal) (m ((c.tc : Thread nD τ).loc main_arg0)) (m ((c.tc : Thread nD τ).loc main_arg1))) (m ((c.tc : Thread nD τ).loc main_arg2)))
          (proj (Cert.ReferenceIdeal.Read.val_main_v6 (F := Ideal) (m ((c.tc : Thread nD τ).loc main_arg0)) (m ((c.tc : Thread nD τ).loc main_arg1))) (m ((c.tc : Thread nD τ).loc main_arg3))) :=
  (W7_v16_1 m ρ c).trans (W4_v16_1 m ρ h04 h05 h14 c)

/-- The kernel program's logits buffer after the run. -/
theorem W7_logits
    (h04 : ∀ (V : VT) (c : Dev nD), (dat0 V c).arrAt 4 cfg0.N = proj2 (V c main_v8) (V c main_v9))
    (h05 : ∀ (V : VT) (c : Dev nD), (dat0 V c).arrAt 5 cfg0.N = proj2 (V c main_v8) (V c main_v10))
    (h06 : ∀ (V : VT) (c : Dev nD), (dat0 V c).arrAt 6 cfg0.N = proj2 (V c main_v8) (V c main_v11))
    (h13 : ∀ (V : VT) (c : Dev nD), (dat1 V c).arrAt 3 cfg1.N = ctx (attn scMul (V c main_v13) (V c main_v14)) (V c main_v15))
    (h23 : ∀ (V : VT) (c : Dev nD), (dat2 V c).arrAt 3 cfg2.N = affine2 (V c main_v19) (V c main_v17) (V c main_v18))
    (c : Dev nD) :
    W7 m ρ c (Proc.devRef .tc main_v21)
      = logits (ctx (attn scMul
          (proj (Cert.ReferenceIdeal.Read.val_main_v6 (F := Ideal) (m ((c.tc : Thread nD τ).loc main_arg0)) (m ((c.tc : Thread nD τ).loc main_arg1))) (m ((c.tc : Thread nD τ).loc main_arg2)))
          (proj (Cert.ReferenceIdeal.Read.val_main_v6 (F := Ideal) (m ((c.tc : Thread nD τ).loc main_arg0)) (m ((c.tc : Thread nD τ).loc main_arg1))) (m ((c.tc : Thread nD τ).loc main_arg3))))
          (proj (Cert.ReferenceIdeal.Read.val_main_v6 (F := Ideal) (m ((c.tc : Thread nD τ).loc main_arg0)) (m ((c.tc : Thread nD τ).loc main_arg1))) (m ((c.tc : Thread nD τ).loc main_arg4))))
          (m ((c.tc : Thread nD τ).loc main_arg5)) (m ((c.tc : Thread nD τ).loc main_arg6)) := by
  have e7 : (W7 m ρ c (Proc.devRef .tc main_v21) : S4x2048x32000.Idx → EReal)
      = shapeCast S4x2048x32000 (W6 m ρ c (Proc.devRef .tc main_v20)) shapeCasts_S8192x32000_S4x2048x32000 := by
    show StableHlo.after hostOps3 _ (Proc.devRef .tc main_v21) = _
    after_results
    rfl
  have e6 : (W6 m ρ c (Proc.devRef .tc main_v20) : S8192x32000.Idx → EReal)
      = affine2 (shapeCast S8192x1024
            (ctx (attn scMul (proj (X m c) (m ((c.tc : Thread nD τ).loc main_arg2))) (proj (X m c) (m ((c.tc : Thread nD τ).loc main_arg3)))) (proj (X m c) (m ((c.tc : Thread nD τ).loc main_arg4))))
            shapeCasts_S4x2048x1024_S8192x1024)
          (m ((c.tc : Thread nD τ).loc main_arg5)) (shapeCast S1x32000 (m ((c.tc : Thread nD τ).loc main_arg6)) shapeCasts_S32000_S1x32000) := by
    refine (W6_arr m ρ c 3).trans ((h23 (V5 m ρ) c).trans ?_)
    rw [V5_v19, V5_v17, V5_v18, W4_v16_0 m ρ h04 h05 h06 h13 c]
  refine e7.trans ?_
  rw [e6]
  exact regroup_logits _ _ _

end Cert.KernelIdeal.GenP

end
-- ==== Proof.LibContractLast.lean ====
/-
  A matrix product that contracts the LAST axis of both operands, read at an entry, generic in the sizes.

  For an `A × K` left operand and a `B × K` right operand the product's entry `(i, j)` is the sum over the
  contracted coordinate `k` of `l (i, k) · r (j, k)` — the left operand times the transpose of the right one. Over
  the extended reals this holds of the host's `dot_general` with these dimension numbers (`dotLast_apply`) and of the
  kernel's matrix product accumulated into a zero constant (`matmulLast_zero_apply`), whatever the operands' float
  formats: at the ideal values a change of format is the identity and the accumulator `0` is the neutral element.
-/
import Idealize.ShloMosaic.Lib.ValueIdx
import Idealize.ShloMosaic.PureOps.Ideal.Laws

noncomputable section

open scoped BigOperators

namespace Cert.LibContractLast

open Idealize.ShloMosaic Idealize.ShloMosaic.ValueIdx

/-- The dimension numbers of the product of an `A × K` matrix with the transpose of a `B × K` matrix: axis 1 of each
    operand contracted, no batch axes. -/
abbrev lastDims (A K B : Nat)
    (wf : DotDims.WF ⟨2, ![A, K]⟩ ⟨2, ![B, K]⟩ ⟨2, ![A, B]⟩ [1] [1] [0] [0] [] []) :
    DotDims ⟨2, ![A, K]⟩ ⟨2, ![B, K]⟩ ⟨2, ![A, B]⟩ where
  lhsContracting := [1]
  rhsContracting := [1]
  lhsNonContracting := [0]
  rhsNonContracting := [0]
  lhsBatch := []
  rhsBatch := []
  wf := wf

/-- The sum over the contraction index of these dimension numbers, at the entry `(i, j)`, is the sum over the
    shared last coordinate `k` of the left operand at `(i, k)` times the right operand at `(j, k)`. -/
theorem contraction_eq {α : Type} [AddCommMonoid α] [Mul α] (A K B : Nat)
    (wf : DotDims.WF ⟨2, ![A, K]⟩ ⟨2, ![B, K]⟩ ⟨2, ![A, B]⟩ [1] [1] [0] [0] [] [])
    (l : (⟨2, ![A, K]⟩ : Shape).Idx → α) (r : (⟨2, ![B, K]⟩ : Shape).Idx → α) (i : Fin A) (j : Fin B) :
    ∑ q : (lastDims A K B wf).contr.Idx,
        l ((lastDims A K B wf).lhsIdx (ix2 i j) q) * r ((lastDims A K B wf).rhsIdx (ix2 i j) q)
      = ∑ k : Fin K, l (ix2 i k) * r (ix2 j k) := by
  rw [← Equiv.sum_comp (contrEquiv1 (lastDims A K B wf) K rfl rfl).symm]
  refine Finset.sum_congr rfl fun c _ => ?_
  have c2 := contrEquiv1_symm_val (lastDims A K B wf) K rfl rfl c
  have l2 : (lastDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (lastDims A K B wf).rhsIdx (ix2 i j) ((contrEquiv1 _ K rfl rfl).symm c) = ix2 j c := by
    funext ax; apply Fin.ext
    match ax with
    | ⟨0, _⟩ => simp [DotDims.rhsIdx]; rfl
    | ⟨1, _⟩ => simp [DotDims.rhsIdx]; exact c2
  rw [l2, r2]

/-- THE HOST'S PRODUCT read at `(i, j)`, over the extended reals. -/
theorem dotLast_apply {φ₁ φ₂ : FTy} (A K B : Nat)
    (wf : DotDims.WF ⟨2, ![A, K]⟩ ⟨2, ![B, K]⟩ ⟨2, ![A, B]⟩ [1] [1] [0] [0] [] [])
    (prec : Option ContractPrecision)
    (l : FVec Ideal ⟨2, ![A, K]⟩ φ₁) (r : FVec Ideal ⟨2, ![B, K]⟩ φ₂) (i : Fin A) (j : Fin B) :
    Host.dotGeneral (lastDims A K B wf) prec l r (ix2 i j) = ∑ k : Fin K, l (ix2 i k) * r (ix2 j k) := by
  show FloatOps.dotGeneral _ prec _ l r (ix2 i j) = _
  rw [Ideal.dotGeneral_apply]
  exact contraction_eq A K B wf l r i j

/-- THE KERNEL'S PRODUCT INTO A ZERO ACCUMULATOR read at `(i, j)`, over the extended reals: the same sum. -/
theorem matmulLast_zero_apply {φ₁ φ₂ : FTy} (A K B : Nat)
    (wf : DotDims.WF ⟨2, ![A, K]⟩ ⟨2, ![B, K]⟩ ⟨2, ![A, B]⟩ [1] [1] [0] [0] [] [])
    (prec : Option ContractPrecision)
    (l : FVec Ideal ⟨2, ![A, K]⟩ φ₁) (r : FVec Ideal ⟨2, ![B, K]⟩ φ₂) (i : Fin A) (j : Fin B) :
    FloatOps.matmul (lastDims A K B wf) prec l r (constant (F := Ideal) ⟨2, ![A, B]⟩ .f32 0x00000000#32) (ix2 i j)
      = ∑ k : Fin K, l (ix2 i k) * r (ix2 j k) := by
  rw [Ideal.matmul_constant_zero_apply]
  exact contraction_eq A K B wf l r i j

end Cert.LibContractLast

end
-- ==== Proof.ValueProj.lean ====
/-
  The first kernel region, read over the extended reals: three matrix products against transposed weights.

  The activations `x` are an 8192 × 1024 matrix; each of three weight matrices `w` is 1024 × 1024. Grid point `t`
  (of 16) holds rows `512·t … 512·t + 511` of `x` and the whole of each `w`, and writes rows `512·t …` of each of
  three output matrices: entry `(r, e)` of its block is `∑ d, x (512·t + r, d) · w (e, d)` — the matrix product
  contracts the last axis of both operands, and the changes of float format and the casts to the same shape are the
  identity on extended reals. The sixteen row blocks tile the output (row `ρ` is in block `ρ / 512`), so each output
  array ends holding `x · wᵀ` at every index.

  Per output: the payload at an entry (`pay0_N_at`), the index maps decided over the grid (`idx_facts0`), the block
  arithmetic (`blk0_W_eq`), what a point writes back (`flushed0_W_eq`), membership in a block and the cover
  (`mem_blk0_W`, `covered0_W`), and the array after the run (`final0_W`).
-/
import proofs.«169576_j4982162063789_2_alg».proof.Proof.KernelIdealFrameP
import proofs.«169576_j4982162063789_2_alg».proof.Proof.Spec
import proofs.«169576_j4982162063789_2_alg».proof.Proof.LibContractLast
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.GenP
open Idealize.ShloMosaic Idealize.ShloMosaic.TcCoe Idealize.SL.Sem Cert.KernelIdeal Cert.KernelIdeal.Gen Idealize.ShloMosaic.Pipeline Idealize.ShloMosaic.ValueIdx

/-- A cast to the same shape is the identity. -/
theorem pay0_1_eq (x : Vec Ideal S512x1024 .bf16) : k0_pay1 (F := Ideal) x = x := by
  unfold k0_pay1
  exact shapeCast_self x _

/-- The first output's payload at an entry: the inner product of a row of the activations block with a row of the
    weights. -/
theorem pay0_2_at (x : Vec Ideal S512x1024 .bf16) (w : Vec Ideal S1024x1024 .bf16) (r : Fin 512) (e : Fin 1024) :
    k0_pay2 (F := Ideal) x w (ix2 r e) = ∑ d : Fin 1024, x (ix2 r d) * w (ix2 e d) := by
  unfold k0_pay2
  rw [pay0_1_eq, shapeCast_self]
  exact Cert.LibContractLast.matmulLast_zero_apply (φ₁ := .bf16) (φ₂ := .bf16) 512 1024 1024 dot_S512x1024_S1024x1024_S512x1024_1_1_0_0_n_n_wf none x w r e

/-- The second output's payload at an entry. -/
theorem pay0_3_at (x : Vec Ideal S512x1024 .bf16) (w : Vec Ideal S1024x1024 .bf16) (r : Fin 512) (e : Fin 1024) :
    k0_pay3 (F := Ideal) x w (ix2 r e) = ∑ d : Fin 1024, x (ix2 r d) * w (ix2 e d) := by
  unfold k0_pay3
  rw [pay0_1_eq, shapeCast_self]
  exact Cert.LibContractLast.matmulLast_zero_apply (φ₁ := .bf16) (φ₂ := .bf16) 512 1024 1024 dot_S512x1024_S1024x1024_S512x1024_1_1_0_0_n_n_wf none x w r e

/-- The third output's payload at an entry. -/
theorem pay0_4_at (x : Vec Ideal S512x1024 .bf16) (w : Vec Ideal S1024x1024 .bf16) (r : Fin 512) (e : Fin 1024) :
    k0_pay4 (F := Ideal) x w (ix2 r e) = ∑ d : Fin 1024, x (ix2 r d) * w (ix2 e d) := by
  unfold k0_pay4
  rw [pay0_1_eq, shapeCast_self]
  exact Cert.LibContractLast.matmulLast_zero_apply (φ₁ := .bf16) (φ₂ := .bf16) 512 1024 1024 dot_S512x1024_S1024x1024_S512x1024_1_1_0_0_n_n_wf none x w r e

/-- The zero offsets, however spelt. -/
theorem hz0 : (![0, 0] : Fin 2 → Nat) = fun _ => 0 := funext fun a => by fin_cases a <;> rfl

/-- The printed index maps, decided over the grid: the activations' and each output's row block index is the grid
    point, and every other block index is zero. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## Output window 4: the product with the first weight matrix -/

/-- Block arithmetic at grid point `t`: row `r` of the row block and row `e` of the whole weight matrix give entry
    `(r, e)` of output block `t` of the product. -/
theorem blk0_4_eq (X : Cert.Attn.Arr2 8192 1024) (W : Cert.Attn.Arr2 1024 1024) (t : Fin cfg0.N) (r : Fin 512) (e : Fin 1024) :
    ∑ d : Fin 1024, X (((cfg0.win 0).blk t).view.emb (ix2 r d)) * W (((cfg0.win 1).blk t).view.emb (ix2 e d))
      = Cert.Attn.proj2 X W (((cfg0.win 4).blk t).view.emb (ix2 r e)) := by
  obtain ⟨a00, a01, a10, a11, a20, a21, a30, a31, a40, a41, a50, a51, a60, a61⟩ := idx_facts0 t
  show _ = ∑ d : Fin 1024, X (ix2 ((((cfg0.win 4).blk t).view.emb (ix2 r e)) 0) d) * W (ix2 ((((cfg0.win 4).blk t).view.emb (ix2 r e)) 1) d)
  refine Finset.sum_congr rfl fun d _ => ?_
  have h0 : ((cfg0.win 0).blk t).view.emb (ix2 r d) = ix2 ((((cfg0.win 4).blk t).view.emb (ix2 r e)) 0) d := by
    funext a; apply Fin.ext
    match a with
    | ⟨0, _⟩ => show win0_0.index t (0 : Fin 2) * 512 + 1 * r.val = win0_4.index t (0 : Fin 2) * 512 + 1 * r.val; omega
    | ⟨1, _⟩ => show win0_0.index t (1 : Fin 2) * 1024 + 1 * d.val = d.val; omega
  have h1 : ((cfg0.win 1).blk t).view.emb (ix2 e d) = ix2 ((((cfg0.win 4).blk t).view.emb (ix2 r e)) 1) d := by
    funext a; apply Fin.ext
    match a with
    | ⟨0, _⟩ => show win0_1.index t (0 : Fin 2) * 1024 + 1 * e.val = win0_4.index t (1 : Fin 2) * 1024 + 1 * e.val; omega
    | ⟨1, _⟩ => show win0_1.index t (1 : Fin 2) * 1024 + 1 * d.val = d.val; omega
  exact congrArg₂ (fun a b : EReal => a * b) (congrArg X h0) (congrArg W h1)

/-- WHAT POINT `t` WRITES BACK is block `t` of the product of the two arrays as the region finds them. -/
theorem flushed0_4_eq (V : (c : Dev nD) → (b : Ref sig .tc) → Buf (Elt Ideal) ((c : Thread nD τ).loc b)) (c : Dev nD) (t : Fin cfg0.N) :
    (dat0 V c).flushed 4 t = ((cfg0.win 4).blk t).view.read (Elt Ideal) (Cert.Attn.proj2 (V c main_v8) (V c main_v9)) := by
  show (cfg0.win 4).cut (grid0.coords t) ((dat0 V c).after 4 t) = _
  rw [after0_4]
  unfold out0_4
  rw [View.canon_unit_zero hz0]
  simp only [View.ld_unit_zero (S := S512x1024) hz0, View.ld_unit_zero (S := S1024x1024) hz0]
  funext j
  obtain ⟨r, e, rfl⟩ : ∃ (r : Fin 512) (e : Fin 1024), j = ix2 r e := ⟨j 0, j 1, eq_ix2 j⟩
  refine (pay0_2_at (iblk0 V c 0 t) (iblk0 V c 1 t) r e).trans ?_
  exact blk0_4_eq (V c main_v8) (V c main_v9) t r e

/-- An index of the array is in point `t`'s block iff each coordinate is in the block's range on its axis. -/
theorem mem_blk0_4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v12_0).slice (win0_4.rect t)).set ↔ _
  rw [View.set_slice_whole, Rect.mem_set_unit]
  exact Iff.rfl

/-- Every index of the array is in some point's block: row `ρ` is in the block of point `ρ / 512`. -/
theorem covered0_4 (i : S8192x1024.Idx) :
    ∃ t : Fin cfg0.N, (cfg0.win 4).flush t = true ∧ i ∈ ((cfg0.win 4).blk t).view.set := by
  have hi0 : (i 0).val < 8192 := (i 0).isLt
  have hi1 : (i 1).val < 1024 := (i 1).isLt
  have hN : cfg0.N = 16 := N_0
  have ht : (i 0).val / 512 < cfg0.N := by rw [hN]; omega
  obtain ⟨a00, a01, a10, a11, a20, a21, a30, a31, a40, a41, a50, a51, a60, a61⟩ := idx_facts0 ⟨(i 0).val / 512, ht⟩
  refine ⟨⟨(i 0).val / 512, ht⟩, flush0_4 _, ?_⟩
  rw [mem_blk0_4]
  intro a
  match a with
  | ⟨0, _⟩ =>
    show win0_4.index ⟨(i 0).val / 512, ht⟩ (0 : Fin 2) * 512 ≤ (i 0).val ∧ (i 0).val < win0_4.index ⟨(i 0).val / 512, ht⟩ (0 : Fin 2) * 512 + 512
    rw [a40]
    show (i 0).val / 512 * 512 ≤ (i 0).val ∧ (i 0).val < (i 0).val / 512 * 512 + 512
    omega
  | ⟨1, _⟩ =>
    show win0_4.index ⟨(i 0).val / 512, ht⟩ (1 : Fin 2) * 1024 ≤ (i 1).val ∧ (i 1).val < win0_4.index ⟨(i 0).val / 512, ht⟩ (1 : Fin 2) * 1024 + 1024
    rw [a41]
    omega

/-- THE ARRAY after the run: the product of the activations with the transposed weights, at every index. -/
theorem final0_4 (V : (c : Dev nD) → (b : Ref sig .tc) → Buf (Elt Ideal) ((c : Thread nD τ).loc b)) (c : Dev nD) :
    (dat0 V c).arrAt 4 cfg0.N = Cert.Attn.proj2 (V c main_v8) (V c main_v9) :=
  (dat0 V c).arrAt_eq_of_cover 4 _ (fun t _ => flushed0_4_eq V c t) covered0_4

/-! ## Output window 5: the product with the second weight matrix -/

/-- Block arithmetic at grid point `t`: row `r` of the row block and row `e` of the whole weight matrix give entry
    `(r, e)` of output block `t` of the product. -/
theorem blk0_5_eq (X : Cert.Attn.Arr2 8192 1024) (W : Cert.Attn.Arr2 1024 1024) (t : Fin cfg0.N) (r : Fin 512) (e : Fin 1024) :
    ∑ d : Fin 1024, X (((cfg0.win 0).blk t).view.emb (ix2 r d)) * W (((cfg0.win 2).blk t).view.emb (ix2 e d))
      = Cert.Attn.proj2 X W (((cfg0.win 5).blk t).view.emb (ix2 r e)) := by
  obtain ⟨a00, a01, a10, a11, a20, a21, a30, a31, a40, a41, a50, a51, a60, a61⟩ := idx_facts0 t
  show _ = ∑ d : Fin 1024, X (ix2 ((((cfg0.win 5).blk t).view.emb (ix2 r e)) 0) d) * W (ix2 ((((cfg0.win 5).blk t).view.emb (ix2 r e)) 1) d)
  refine Finset.sum_congr rfl fun d _ => ?_
  have h0 : ((cfg0.win 0).blk t).view.emb (ix2 r d) = ix2 ((((cfg0.win 5).blk t).view.emb (ix2 r e)) 0) d := by
    funext a; apply Fin.ext
    match a with
    | ⟨0, _⟩ => show win0_0.index t (0 : Fin 2) * 512 + 1 * r.val = win0_5.index t (0 : Fin 2) * 512 + 1 * r.val; omega
    | ⟨1, _⟩ => show win0_0.index t (1 : Fin 2) * 1024 + 1 * d.val = d.val; omega
  have h1 : ((cfg0.win 2).blk t).view.emb (ix2 e d) = ix2 ((((cfg0.win 5).blk t).view.emb (ix2 r e)) 1) d := by
    funext a; apply Fin.ext
    match a with
    | ⟨0, _⟩ => show win0_2.index t (0 : Fin 2) * 1024 + 1 * e.val = win0_5.index t (1 : Fin 2) * 1024 + 1 * e.val; omega
    | ⟨1, _⟩ => show win0_2.index t (1 : Fin 2) * 1024 + 1 * d.val = d.val; omega
  exact congrArg₂ (fun a b : EReal => a * b) (congrArg X h0) (congrArg W h1)

/-- WHAT POINT `t` WRITES BACK is block `t` of the product of the two arrays as the region finds them. -/
theorem flushed0_5_eq (V : (c : Dev nD) → (b : Ref sig .tc) → Buf (Elt Ideal) ((c : Thread nD τ).loc b)) (c : Dev nD) (t : Fin cfg0.N) :
    (dat0 V c).flushed 5 t = ((cfg0.win 5).blk t).view.read (Elt Ideal) (Cert.Attn.proj2 (V c main_v8) (V c main_v10)) := by
  show (cfg0.win 5).cut (grid0.coords t) ((dat0 V c).after 5 t) = _
  rw [after0_5]
  unfold out0_5
  rw [View.canon_unit_zero hz0]
  simp only [View.ld_unit_zero (S := S512x1024) hz0, View.ld_unit_zero (S := S1024x1024) hz0]
  funext j
  obtain ⟨r, e, rfl⟩ : ∃ (r : Fin 512) (e : Fin 1024), j = ix2 r e := ⟨j 0, j 1, eq_ix2 j⟩
  refine (pay0_3_at (iblk0 V c 0 t) (iblk0 V c 2 t) r e).trans ?_
  exact blk0_5_eq (V c main_v8) (V c main_v10) t r e

/-- An index of the array is in point `t`'s block iff each coordinate is in the block's range on its axis. -/
theorem mem_blk0_5 (t : Fin cfg0.N) (i : S8192x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v12_1).slice (win0_5.rect t)).set ↔ _
  rw [View.set_slice_whole, Rect.mem_set_unit]
  exact Iff.rfl

/-- Every index of the array is in some point's block: row `ρ` is in the block of point `ρ / 512`. -/
theorem covered0_5 (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have hN : cfg0.N = 16 := N_0
  have ht : (i 0).val / 512 < cfg0.N := by rw [hN]; omega
  obtain ⟨a00, a01, a10, a11, a20, a21, a30, a31, a40, a41, a50, a51, a60, a61⟩ := idx_facts0 ⟨(i 0).val / 512, ht⟩
  refine ⟨⟨(i 0).val / 512, ht⟩, flush0_5 _, ?_⟩
  rw [mem_blk0_5]
  intro a
  match a with
  | ⟨0, _⟩ =>
    show win0_5.index ⟨(i 0).val / 512, ht⟩ (0 : Fin 2) * 512 ≤ (i 0).val ∧ (i 0).val < win0_5.index ⟨(i 0).val / 512, ht⟩ (0 : Fin 2) * 512 + 512
    rw [a50]
    show (i 0).val / 512 * 512 ≤ (i 0).val ∧ (i 0).val < (i 0).val / 512 * 512 + 512
    omega
  | ⟨1, _⟩ =>
    show win0_5.index ⟨(i 0).val / 512, ht⟩ (1 : Fin 2) * 1024 ≤ (i 1).val ∧ (i 1).val < win0_5.index ⟨(i 0).val / 512, ht⟩ (1 : Fin 2) * 1024 + 1024
    rw [a51]
    omega

/-- THE ARRAY after the run: the product of the activations with the transposed weights, at every index. -/
theorem final0_5 (V : (c : Dev nD) → (b : Ref sig .tc) → Buf (Elt Ideal) ((c : Thread nD τ).loc b)) (c : Dev nD) :
    (dat0 V c).arrAt 5 cfg0.N = Cert.Attn.proj2 (V c main_v8) (V c main_v10) :=
  (dat0 V c).arrAt_eq_of_cover 5 _ (fun t _ => flushed0_5_eq V c t) covered0_5

/-! ## Output window 6: the product with the third weight matrix -/

/-- Block arithmetic at grid point `t`: row `r` of the row block and row `e` of the whole weight matrix give entry
    `(r, e)` of output block `t` of the product. -/
theorem blk0_6_eq (X : Cert.Attn.Arr2 8192 1024) (W : Cert.Attn.Arr2 1024 1024) (t : Fin cfg0.N) (r : Fin 512) (e : Fin 1024) :
    ∑ d : Fin 1024, X (((cfg0.win 0).blk t).view.emb (ix2 r d)) * W (((cfg0.win 3).blk t).view.emb (ix2 e d))
      = Cert.Attn.proj2 X W (((cfg0.win 6).blk t).view.emb (ix2 r e)) := by
  obtain ⟨a00, a01, a10, a11, a20, a21, a30, a31, a40, a41, a50, a51, a60, a61⟩ := idx_facts0 t
  show _ = ∑ d : Fin 1024, X (ix2 ((((cfg0.win 6).blk t).view.emb (ix2 r e)) 0) d) * W (ix2 ((((cfg0.win 6).blk t).view.emb (ix2 r e)) 1) d)
  refine Finset.sum_congr rfl fun d _ => ?_
  have h0 : ((cfg0.win 0).blk t).view.emb (ix2 r d) = ix2 ((((cfg0.win 6).blk t).view.emb (ix2 r e)) 0) d := by
    funext a; apply Fin.ext
    match a with
    | ⟨0, _⟩ => show win0_0.index t (0 : Fin 2) * 512 + 1 * r.val = win0_6.index t (0 : Fin 2) * 512 + 1 * r.val; omega
    | ⟨1, _⟩ => show win0_0.index t (1 : Fin 2) * 1024 + 1 * d.val = d.val; omega
  have h1 : ((cfg0.win 3).blk t).view.emb (ix2 e d) = ix2 ((((cfg0.win 6).blk t).view.emb (ix2 r e)) 1) d := by
    funext a; apply Fin.ext
    match a with
    | ⟨0, _⟩ => show win0_3.index t (0 : Fin 2) * 1024 + 1 * e.val = win0_6.index t (1 : Fin 2) * 1024 + 1 * e.val; omega
    | ⟨1, _⟩ => show win0_3.index t (1 : Fin 2) * 1024 + 1 * d.val = d.val; omega
  exact congrArg₂ (fun a b : EReal => a * b) (congrArg X h0) (congrArg W h1)

/-- WHAT POINT `t` WRITES BACK is block `t` of the product of the two arrays as the region finds them. -/
theorem flushed0_6_eq (V : (c : Dev nD) → (b : Ref sig .tc) → Buf (Elt Ideal) ((c : Thread nD τ).loc b)) (c : Dev nD) (t : Fin cfg0.N) :
    (dat0 V c).flushed 6 t = ((cfg0.win 6).blk t).view.read (Elt Ideal) (Cert.Attn.proj2 (V c main_v8) (V c main_v11)) := by
  show (cfg0.win 6).cut (grid0.coords t) ((dat0 V c).after 6 t) = _
  rw [after0_6]
  unfold out0_6
  rw [View.canon_unit_zero hz0]
  simp only [View.ld_unit_zero (S := S512x1024) hz0, View.ld_unit_zero (S := S1024x1024) hz0]
  funext j
  obtain ⟨r, e, rfl⟩ : ∃ (r : Fin 512) (e : Fin 1024), j = ix2 r e := ⟨j 0, j 1, eq_ix2 j⟩
  refine (pay0_4_at (iblk0 V c 0 t) (iblk0 V c 3 t) r e).trans ?_
  exact blk0_6_eq (V c main_v8) (V c main_v11) t r e

/-- An index of the array is in point `t`'s block iff each coordinate is in the block's range on its axis. -/
theorem mem_blk0_6 (t : Fin cfg0.N) (i : S8192x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v12_2).slice (win0_6.rect t)).set ↔ _
  rw [View.set_slice_whole, Rect.mem_set_unit]
  exact Iff.rfl

/-- Every index of the array is in some point's block: row `ρ` is in the block of point `ρ / 512`. -/
theorem covered0_6 (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  have hN : cfg0.N = 16 := N_0
  have ht : (i 0).val / 512 < cfg0.N := by rw [hN]; omega
  obtain ⟨a00, a01, a10, a11, a20, a21, a30, a31, a40, a41, a50, a51, a60, a61⟩ := idx_facts0 ⟨(i 0).val / 512, ht⟩
  refine ⟨⟨(i 0).val / 512, ht⟩, flush0_6 _, ?_⟩
  rw [mem_blk0_6]
  intro a
  match a with
  | ⟨0, _⟩ =>
    show win0_6.index ⟨(i 0).val / 512, ht⟩ (0 : Fin 2) * 512 ≤ (i 0).val ∧ (i 0).val < win0_6.index ⟨(i 0).val / 512, ht⟩ (0 : Fin 2) * 512 + 512
    rw [a60]
    show (i 0).val / 512 * 512 ≤ (i 0).val ∧ (i 0).val < (i 0).val / 512 * 512 + 512
    omega
  | ⟨1, _⟩ =>
    show win0_6.index ⟨(i 0).val / 512, ht⟩ (1 : Fin 2) * 1024 ≤ (i 1).val ∧ (i 1).val < win0_6.index ⟨(i 0).val / 512, ht⟩ (1 : Fin 2) * 1024 + 1024
    rw [a61]
    omega

/-- THE ARRAY after the run: the product of the activations with the transposed weights, at every index. -/
theorem final0_6 (V : (c : Dev nD) → (b : Ref sig .tc) → Buf (Elt Ideal) ((c : Thread nD τ).loc b)) (c : Dev nD) :
    (dat0 V c).arrAt 6 cfg0.N = Cert.Attn.proj2 (V c main_v8) (V c main_v11) :=
  (dat0 V c).arrAt_eq_of_cover 6 _ (fun t _ => flushed0_6_eq V c t) covered0_6

end Cert.KernelIdeal.GenP
end
-- ==== Proof.ValueOut.lean ====
/-
  The third kernel region, read over the extended reals: the last projection plus its bias.

  The activations `x` are an 8192 × 1024 matrix, the output table `w` is 32000 × 1024 and the bias is a one-row matrix
  1 × 32000. The grid is 10 × 16; the point with coordinates `(j, i)` holds rows `512·i …` of `x`, rows `3200·j …` of
  `w` and columns `3200·j …` of the bias, and writes the 512 × 3200 block at block index `(i, j)` of the 8192 × 32000
  output: entry `(r, e)` of its block is `∑ d, x (512·i + r, d) · w (3200·j + e, d) + bias (0, 3200·j + e)` — the
  matrix product contracts the last axis of both operands, the bias row is repeated down the rows, and the casts to
  the same shape are the identity. The 160 blocks tile the output (entry `(ρ, γ)` is in the block with block index
  `(ρ / 512, γ / 3200)`), so the output array ends holding `x · wᵀ + bias` at every index.

  The payload at an entry (`pay2_1_at`), the index maps decided over the grid (`idx_facts2`, `idx_onto2`), the block
  arithmetic (`blk2_3_eq`), what a point writes back (`flushed2_3_eq`), membership in a block and the cover
  (`mem_blk2_3`, `covered2_3`), and the array after the run (`final2_3`).
-/
import proofs.«169576_j4982162063789_2_alg».proof.Proof.KernelIdealFrameP
import proofs.«169576_j4982162063789_2_alg».proof.Proof.Spec
import proofs.«169576_j4982162063789_2_alg».proof.Proof.LibContractLast
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.GenP
open Idealize.ShloMosaic Idealize.ShloMosaic.TcCoe Idealize.SL.Sem Cert.KernelIdeal Cert.KernelIdeal.Gen Idealize.ShloMosaic.Pipeline Idealize.ShloMosaic.ValueIdx

/-- The third region's payload at an entry: the inner product of a row of the activations block with a row of the
    weights block, plus the bias of that column (the bias block has one row, repeated down the rows). -/
theorem pay2_1_at (x : Vec Ideal S512x1024 .bf16) (w : Vec Ideal S3200x1024 .bf16) (b : Vec Ideal S1x3200 .f32) (r : Fin 512) (e : Fin 3200) :
    k2_pay1 (F := Ideal) x w b (ix2 r e) = (∑ d : Fin 1024, x (ix2 r d) * w (ix2 e d)) + b (ix2 (0 : Fin 1) e) := by
  unfold k2_pay1
  rw [shapeCast_self, shapeCast_self, shapeCast_self]
  refine congrArg₂ (fun u v : EReal => u + v)
    (Cert.LibContractLast.matmulLast_zero_apply (φ₁ := .bf16) (φ₂ := .bf16) 512 1024 3200 dot_S512x1024_S3200x1024_S512x3200_1_1_0_0_n_n_wf none x w r e) ?_
  refine broadcastTo_apply b broadcasts_S1x3200_S512x3200 (ix2 r e) (ix2 (0 : Fin 1) e) fun a => ?_
  match a with
  | ⟨0, _⟩ => rfl
  | ⟨1, _⟩ => rfl

/-- The zero offsets, however spelt. -/
theorem hz2 : (![0, 0] : Fin 2 → Nat) = fun _ => 0 := funext fun a => by fin_cases a <;> rfl

/-- The printed index maps, decided over the grid: the activations' row block and the weights' row block follow the
    output block's row and column block indices, the bias follows its column block index, and every other block index
    is zero. -/
theorem idx_facts2 : ∀ t : Fin cfg2.N,
    win2_0.index t (0 : Fin 2) = win2_3.index t (0 : Fin 2) ∧ win2_0.index t (1 : Fin 2) = 0
    ∧ win2_1.index t (0 : Fin 2) = win2_3.index t (1 : Fin 2) ∧ win2_1.index t (1 : Fin 2) = 0
    ∧ win2_2.index t (0 : Fin 2) = 0 ∧ win2_2.index t (1 : Fin 2) = win2_3.index t (1 : Fin 2) :=
  (by decide +kernel : ∀ t : Fin grid2.N, _)

/-- Every block of the output array is some point's. -/
theorem idx_onto2 : ∀ (q0 : Fin 16) (q1 : Fin 10), ∃ t : Fin cfg2.N, win2_3.index t = ![q0.val, q1.val] :=
  (by decide +kernel : ∀ (q0 : Fin 16) (q1 : Fin 10), ∃ t : Fin grid2.N, win2_3.index t = ![q0.val, q1.val])

/-- Block arithmetic at grid point `t`: row `r` of the activations' block, row `e` of the weights' block and entry `e`
    of the bias block give entry `(r, e)` of output block `t` of the affine map. -/
theorem blk2_3_eq (X : Cert.Attn.Arr2 8192 1024) (W : Cert.Attn.Arr2 32000 1024) (B : Cert.Attn.Arr2 1 32000) (t : Fin cfg2.N) (r : Fin 512) (e : Fin 3200) :
    (∑ d : Fin 1024, X (((cfg2.win 0).blk t).view.emb (ix2 r d)) * W (((cfg2.win 1).blk t).view.emb (ix2 e d)))
        + B (((cfg2.win 2).blk t).view.emb (ix2 (0 : Fin 1) e))
      = Cert.Attn.affine2 X W B (((cfg2.win 3).blk t).view.emb (ix2 r e)) := by
  obtain ⟨a00, a01, a10, a11, a20, a21⟩ := idx_facts2 t
  show _ = (∑ d : Fin 1024, X (ix2 ((((cfg2.win 3).blk t).view.emb (ix2 r e)) 0) d) * W (ix2 ((((cfg2.win 3).blk t).view.emb (ix2 r e)) 1) d))
      + B (ix2 (0 : Fin 1) ((((cfg2.win 3).blk t).view.emb (ix2 r e)) 1))
  have h2 : ((cfg2.win 2).blk t).view.emb (ix2 (0 : Fin 1) e) = ix2 (0 : Fin 1) ((((cfg2.win 3).blk t).view.emb (ix2 r e)) 1) := by
    funext a; apply Fin.ext
    match a with
    | ⟨0, _⟩ => show win2_2.index t (0 : Fin 2) * 1 + 1 * 0 = 0; omega
    | ⟨1, _⟩ => show win2_2.index t (1 : Fin 2) * 3200 + 1 * e.val = win2_3.index t (1 : Fin 2) * 3200 + 1 * e.val; omega
  refine congrArg₂ (fun u v : EReal => u + v) (Finset.sum_congr rfl fun d _ => ?_) (congrArg B h2)
  have h0 : ((cfg2.win 0).blk t).view.emb (ix2 r d) = ix2 ((((cfg2.win 3).blk t).view.emb (ix2 r e)) 0) d := by
    funext a; apply Fin.ext
    match a with
    | ⟨0, _⟩ => show win2_0.index t (0 : Fin 2) * 512 + 1 * r.val = win2_3.index t (0 : Fin 2) * 512 + 1 * r.val; omega
    | ⟨1, _⟩ => show win2_0.index t (1 : Fin 2) * 1024 + 1 * d.val = d.val; omega
  have h1 : ((cfg2.win 1).blk t).view.emb (ix2 e d) = ix2 ((((cfg2.win 3).blk t).view.emb (ix2 r e)) 1) d := by
    funext a; apply Fin.ext
    match a with
    | ⟨0, _⟩ => show win2_1.index t (0 : Fin 2) * 3200 + 1 * e.val = win2_3.index t (1 : Fin 2) * 3200 + 1 * e.val; omega
    | ⟨1, _⟩ => show win2_1.index t (1 : Fin 2) * 1024 + 1 * d.val = d.val; omega
  exact congrArg₂ (fun u v : EReal => u * v) (congrArg X h0) (congrArg W h1)

/-- WHAT POINT `t` WRITES BACK is block `t` of the affine map of the three arrays as the region finds them. -/
theorem flushed2_3_eq (V : (c : Dev nD) → (b : Ref sig .tc) → Buf (Elt Ideal) ((c : Thread nD τ).loc b)) (c : Dev nD) (t : Fin cfg2.N) :
    (dat2 V c).flushed 3 t = ((cfg2.win 3).blk t).view.read (Elt Ideal) (Cert.Attn.affine2 (V c main_v19) (V c main_v17) (V c main_v18)) := by
  show (cfg2.win 3).cut (grid2.coords t) ((dat2 V c).after 3 t) = _
  rw [after2_3]
  unfold out2_3
  rw [View.canon_unit_zero hz2]
  simp only [View.ld_unit_zero (S := S512x1024) hz2, View.ld_unit_zero (S := S3200x1024) hz2, View.ld_unit_zero (S := S1x3200) hz2]
  funext j
  obtain ⟨r, e, rfl⟩ : ∃ (r : Fin 512) (e : Fin 3200), j = ix2 r e := ⟨j 0, j 1, eq_ix2 j⟩
  refine (pay2_1_at (iblk2 V c 0 t) (iblk2 V c 1 t) (iblk2 V c 2 t) r e).trans ?_
  exact blk2_3_eq (V c main_v19) (V c main_v17) (V c main_v18) t r e

/-- An index of the array is in point `t`'s block iff each coordinate is in the block's range on its axis. -/
theorem mem_blk2_3 (t : Fin cfg2.N) (i : S8192x32000.Idx) :
    i ∈ ((cfg2.win 3).blk t).view.set ↔ ∀ a : Fin 2, win2_3.index t a * S512x3200.size a ≤ (i a).val ∧ (i a).val < win2_3.index t a * S512x3200.size a + S512x3200.size a := by
  show i ∈ ((View.whole main_v20).slice (win2_3.rect t)).set ↔ _
  rw [View.set_slice_whole, Rect.mem_set_unit]
  exact Iff.rfl

/-- Every index of the array is in some point's block: entry `(ρ, γ)` is in the block with block index
    `(ρ / 512, γ / 3200)`. -/
theorem covered2_3 (i : S8192x32000.Idx) :
    ∃ t : Fin cfg2.N, (cfg2.win 3).flush t = true ∧ i ∈ ((cfg2.win 3).blk t).view.set := by
  have hi0 : (i 0).val < 8192 := (i 0).isLt
  have hi1 : (i 1).val < 32000 := (i 1).isLt
  obtain ⟨t, ht⟩ := idx_onto2 ⟨(i 0).val / 512, by omega⟩ ⟨(i 1).val / 3200, by omega⟩
  have q0 : win2_3.index t (0 : Fin 2) = (i 0).val / 512 := congrFun ht 0
  have q1 : win2_3.index t (1 : Fin 2) = (i 1).val / 3200 := congrFun ht 1
  refine ⟨t, flush2_3 t, ?_⟩
  rw [mem_blk2_3]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 3200 ≤ (i 1).val ∧ (i 1).val < win2_3.index t (1 : Fin 2) * 3200 + 3200; omega

/-- THE ARRAY after the run: the activations times the transposed weights plus the bias row, at every index. -/
theorem final2_3 (V : (c : Dev nD) → (b : Ref sig .tc) → Buf (Elt Ideal) ((c : Thread nD τ).loc b)) (c : Dev nD) :
    (dat2 V c).arrAt 3 cfg2.N = Cert.Attn.affine2 (V c main_v19) (V c main_v17) (V c main_v18) :=
  (dat2 V c).arrAt_eq_of_cover 3 _ (fun t _ => flushed2_3_eq V c t) covered2_3

end Cert.KernelIdeal.GenP
end
-- ==== Proof.LibLayout.lean ====
/-
  Two column layouts of small arrays read at an index: a vector viewed as a one-column matrix, and a one-column
  matrix repeated along its rows' second axis. (The library has the row forms; these are the column forms a
  keep-dimensions row reduction produces.)
-/
import Idealize.ShloMosaic.Lib.Pipeline.Value
import Idealize.ShloMosaic.Lib.ValueIdx

namespace Cert.Attn.Layout

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Attn.Layout
-- ==== Proof.LibContractPlain.lean ====
/-
  A plain matrix product — the columns of an `A × K` left operand contracted with the rows of a `K × B` right
  operand — read at an entry, generic in the sizes and in the precision attribute.

  The product's entry `(i, j)` is the sum over the contracted coordinate `k` of `l (i, k) · r (k, j)`. Over the
  extended reals this holds of the kernel's matrix product accumulated into a zero constant
  (`matmulPlain_zero_apply`) and of the host's `dot_general` with these dimension numbers (`dotPlain_apply`),
  whatever the operands' float formats and the requested precision: at the ideal values no rounding is left in
  either, and the accumulator `0` is the neutral element.
-/
import Idealize.ShloMosaic.Lib.ValueIdx
import Idealize.ShloMosaic.PureOps.Ideal.Laws

noncomputable section

open scoped BigOperators

namespace Cert.LibContractPlain

open Idealize.ShloMosaic Idealize.ShloMosaic.ValueIdx

/-- The dimension numbers of the plain product of an `A × K` by a `K × B` matrix: axis 1 of the left operand
    contracted with axis 0 of the right one, no batch axes. -/
abbrev plainDims (A K B : Nat)
    (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- The sum over the contraction index of these dimension numbers, at the entry `(i, j)`, is the sum over the
    shared coordinate `k` of the left operand at `(i, k)` times the right operand at `(k, j)`. -/
theorem contraction_eq {α : Type} [AddCommMonoid α] [Mul α] (A K B : Nat)
    (wf : DotDims.WF ⟨2, ![A, K]⟩ ⟨2, ![K, B]⟩ ⟨2, ![A, B]⟩ [1] [0] [0] [1] [] [])
    (l : (⟨2, ![A, K]⟩ : Shape).Idx → α) (r : (⟨2, ![K, B]⟩ : Shape).Idx → α) (i : Fin A) (j : Fin B) :
    ∑ q : (plainDims A K B wf).contr.Idx,
        l ((plainDims A K B wf).lhsIdx (ix2 i j) q) * r ((plainDims A K B wf).rhsIdx (ix2 i j) q)
      = ∑ k : Fin K, l (ix2 i k) * r (ix2 k j) := by
  rw [← Equiv.sum_comp (contrEquiv1 (plainDims A K B wf) K rfl rfl).symm]
  refine Finset.sum_congr rfl fun c _ => ?_
  have c2 := contrEquiv1_symm_val (plainDims A K B wf) K rfl rfl c
  have l2 : (plainDims A K B wf).lhsIdx (ix2 i j) ((contrEquiv1 _ K rfl rfl).symm c) = ix2 i c := by
    funext ax; apply Fin.ext
    match ax with
    | ⟨0, _⟩ => simp [DotDims.lhsIdx]; rfl
    | ⟨1, _⟩ => simp [DotDims.lhsIdx]; exact c2
  have r2 : (plainDims A K B wf).rhsIdx (ix2 i j) ((contrEquiv1 _ K rfl rfl).symm c) = ix2 c j := by
    funext ax; apply Fin.ext
    match ax with
    | ⟨0, _⟩ => simp [DotDims.rhsIdx]; exact c2
    | ⟨1, _⟩ => simp [DotDims.rhsIdx]; rfl
  rw [l2, r2]

/-- THE HOST'S PLAIN PRODUCT read at `(i, j)`, over the extended reals. -/
theorem dotPlain_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    Host.dotGeneral (plainDims A K B wf) prec l r (ix2 i j) = ∑ k : Fin K, l (ix2 i k) * r (ix2 k j) := by
  show FloatOps.dotGeneral _ prec _ l r (ix2 i j) = _
  rw [Ideal.dotGeneral_apply]
  exact contraction_eq A K B wf l r i j

/-- THE KERNEL'S PLAIN PRODUCT INTO A ZERO ACCUMULATOR read at `(i, j)`, over the extended reals: the same sum. -/
theorem matmulPlain_zero_apply {φ₁ φ₂ : FTy} (A K B : Nat)
    (wf : DotDims.WF ⟨2, ![A, K]⟩ ⟨2, ![K, B]⟩ ⟨2, ![A, B]⟩ [1] [0] [0] [1] [] [])
    (prec : Option ContractPrecision)
    (l : FVec Ideal ⟨2, ![A, K]⟩ φ₁) (r : FVec Ideal ⟨2, ![K, B]⟩ φ₂) (i : Fin A) (j : Fin B) :
    FloatOps.matmul (plainDims A K B wf) prec l r (constant (F := Ideal) ⟨2, ![A, B]⟩ .f32 0x00000000#32) (ix2 i j)
      = ∑ k : Fin K, l (ix2 i k) * r (ix2 k j) := by
  rw [Ideal.matmul_constant_zero_apply]
  exact contraction_eq A K B wf l r i j

end Cert.LibContractPlain

end
-- ==== Proof.AttnBody.lean ====
/-
  The attention kernel's body at one grid point, read index by index over the extended reals.

  From a block of 128 query rows and the batch's 2048 key rows the body forms the scores `q · k / 32`, replaces
  the score of a key position beyond the query's own position (`128 · qi + r` for row `r` of query tile `qi`) by
  `⊥`, and turns each row into weights by `exp (s − max s) / ∑ exp (s − max s)`: row `r` of the result is the
  softmax of row `r` of the masked scores. The second result is the product of the weights with the 2048 value rows.
-/
import proofs.«169576_j4982162063789_2_alg».proof.Proof.Gen.KernelIdeal.Skeleton
import proofs.«169576_j4982162063789_2_alg».proof.Proof.Consts
import proofs.«169576_j4982162063789_2_alg».proof.Proof.LibLayout
import proofs.«169576_j4982162063789_2_alg».proof.Proof.LibContractLast
import proofs.«169576_j4982162063789_2_alg».proof.Proof.LibContractPlain
import Idealize.ShloMosaic.Lib.ValueIdx
import Idealize.ShloMosaic.Lib.ValueLayout
import Idealize.ShloMosaic.Lib.Pipeline.Value
import Idealize.ShloMosaic.Lib.Affine
import Idealize.ShloMosaic.PureOps.Ideal.Laws
import Idealize.ShloMosaic.PureOps.IdealRules

noncomputable section

open scoped BigOperators

namespace Cert.KernelIdeal.AttnBody

open Idealize.ShloMosaic Idealize.ShloMosaic.ValueIdx Cert.KernelIdeal Cert.KernelIdeal.Gen Cert.Attn

/-- The stand-in for `-∞` that fills the masked scores denotes `⊥`. -/
theorem neg_big : Named.named (F := Ideal) Cert.KernelIdeal.κ "neg_big" (φ := .f32) 0xF149F2CA#32 = (⊥ : EReal) :=
  IdealRules.named_const.ideal_named_scalar _ _ _ _ rfl

/-- A per-row value, viewed as a column and repeated along the row, reads the row's value. -/
theorem rowBroadcast_at (v : FVec Ideal S128 .f32) (r : Fin 128) (k : Fin 2048) :
    broadcastTo S128x2048 (shapeCast S128x1 v shapeCasts_S128_S128x1) broadcasts_S128x1_S128x2048 (ix2 r k) = v (ix1 r) :=
  (Cert.Attn.Layout.broadcastTo_a1_ab_apply _ broadcasts_S128x1_S128x2048 r k).trans
    (Cert.Attn.Layout.shapeCast_a_a1_apply v shapeCasts_S128_S128x1 r 0)

/-- The coordinates of the index a row reduction reads at position `k` of row `r`. -/
theorem lift_row (r : Fin 128) (k : Fin 2048) :
    (reduces_S128x2048_S128 : S128x2048.Reduces [1] S128).lift (ix1 r) k = ix2 r k := by
  funext a; apply Fin.ext
  match a with
  | ⟨0, _⟩ => rfl
  | ⟨1, _⟩ => rfl

/-- The row maximum the body takes is the largest entry of the row. -/
theorem rowMax_at (s : FVec Ideal S128x2048 .f32) (hφ : FKind.Formats .f32)
    (hacc : (0xFF800000#32 : BitVec 32) = FKind.maximumf.neutral .f32 hφ) (r : Fin 128) :
    multiReduction .maximumf [1] S128 s 0xFF800000#32 reduces_S128x2048_S128 hφ hacc (ix1 r)
      = rowMax (fun k' : Fin 2048 => s (ix2 r k')) := by
  refine (Ideal.multiReduction_maximumf_single s _ reduces_S128x2048_S128 hφ hacc (ix1 r)).trans ?_
  unfold rowMax
  have e : (s ∘ (reduces_S128x2048_S128 : S128x2048.Reduces [1] S128).lift (ix1 r)) = fun k' : Fin 2048 => s (ix2 r k') :=
    funext fun k' => congrArg s (lift_row r k')
  rw [e]
  exact congrArg (fun b => Finset.fold max b (fun k' : Fin 2048 => s (ix2 r k')) Finset.univ) ofBits_neg_inf

/-- The row sum the body takes is the sum of the row's entries. -/
theorem rowSum_at (s : FVec Ideal S128x2048 .f32) (hφ : FKind.Formats .f32)
    (hacc : (0x00000000#32 : BitVec 32) = FKind.add.neutral .f32 hφ) (r : Fin 128) :
    multiReduction .add [1] S128 s 0x00000000#32 reduces_S128x2048_S128 hφ hacc (ix1 r)
      = ∑ k' : Fin 2048, s (ix2 r k') := by
  refine (Ideal.multiReduction_add_single s _ reduces_S128x2048_S128 hφ hacc (ix1 r)).trans ?_
  exact Finset.sum_congr rfl fun k' _ => congrArg s (lift_row r k')

/-- Rows of scores to rows of weights, as the body spells it: subtract the row maximum, exponentiate, divide by the
    row sum. At `(r, k)` this is the softmax of row `r` at `k`. -/
theorem softmaxRows_at (s : FVec Ideal S128x2048 .f32) (hφ hφ' : FKind.Formats .f32)
    (hmax : (0xFF800000#32 : BitVec 32) = FKind.maximumf.neutral .f32 hφ)
    (hadd : (0x00000000#32 : BitVec 32) = FKind.add.neutral .f32 hφ') (r : Fin 128) (k : Fin 2048) :
    divf
        (exp (subf s (broadcastTo S128x2048 (shapeCast S128x1
          (multiReduction .maximumf [1] S128 s 0xFF800000#32 reduces_S128x2048_S128 hφ hmax) shapeCasts_S128_S128x1)
          broadcasts_S128x1_S128x2048)))
        (broadcastTo S128x2048 (shapeCast S128x1
          (multiReduction .add [1] S128
            (exp (subf s (broadcastTo S128x2048 (shapeCast S128x1
              (multiReduction .maximumf [1] S128 s 0xFF800000#32 reduces_S128x2048_S128 hφ hmax) shapeCasts_S128_S128x1)
              broadcasts_S128x1_S128x2048)))
            0x00000000#32 reduces_S128x2048_S128 hφ' hadd) shapeCasts_S128_S128x1) broadcasts_S128x1_S128x2048)
        (ix2 r k)
      = rowSoftmax (fun k' : Fin 2048 => s (ix2 r k')) k := by
  have hE : ∀ k' : Fin 2048,
      exp (subf s (broadcastTo S128x2048 (shapeCast S128x1
          (multiReduction .maximumf [1] S128 s 0xFF800000#32 reduces_S128x2048_S128 hφ hmax) shapeCasts_S128_S128x1)
          broadcasts_S128x1_S128x2048)) (ix2 r k')
        = Ideal.exp (s (ix2 r k') - rowMax (fun k'' : Fin 2048 => s (ix2 r k''))) := by
    intro k'
    show Ideal.exp (s (ix2 r k') - _) = _
    rw [rowBroadcast_at, rowMax_at]
  show Ideal.div _ _ = _
  rw [hE k, rowBroadcast_at, rowSum_at]
  unfold rowSoftmax
  exact congrArg (Ideal.div _) (Finset.sum_congr rfl fun k' _ => hE k')

/-! ## The masked scores of a block -/

/-- The score row `r` of query tile `qi` gives key position `k`: the rescaled inner product up to the query's own
    position `128 · qi + r`, `⊥` beyond it. -/
def blockScore (i : grid1.Coords) (x0 : Vec Ideal S1x128x1024 .bf16) (x1 : Vec Ideal S1x2048x1024 .bf16)
    (r : Fin 128) (k : Fin 2048) : EReal :=
  if k.val ≤ (i 1).val * 128 + r.val then
    scMul (∑ d : Fin 1024, x0 (ix3 (0 : Fin 1) r d) * x1 (ix3 (0 : Fin 1) k d))
  else ⊥

/-- The signed comparison of two small nonnegative words is the comparison of the numbers. -/
theorem sle_ofNat (a b : Nat) (ha : a < 2 ^ 31) (hb : b < 2 ^ 31) :
    IntOp.cmpi .sle (BitVec.ofNat 32 a) (BitVec.ofNat 32 b) = if a ≤ b then 1#1 else 0#1 := by
  have ta : (BitVec.ofNat 32 a).toInt = a := by
    rw [BitVec.toInt_eq_toNat_of_lt (by rw [BitVec.toNat_ofNat]; omega), BitVec.toNat_ofNat]; omega
  have tb : (BitVec.ofNat 32 b).toInt = b := by
    rw [BitVec.toInt_eq_toNat_of_lt (by rw [BitVec.toNat_ofNat]; omega), BitVec.toNat_ofNat]; omega
  split
  · rename_i h
    exact IntOp.cmpi_sle.mpr (by rw [ta, tb]; exact_mod_cast h)
  · rename_i h
    exact eq_zero_of_ne_one fun h1 => h (by have := IntOp.cmpi_sle.mp h1; rw [ta, tb] at this; exact_mod_cast this)

/-- The causal mask at `(r, k)` of query tile `qi`: on exactly when `k ≤ 128 · qi + r`. -/
theorem mask_at (i : grid1.Coords) (r : Fin 128) (k : Fin 2048) :
    cmpi .sle (iota .tc S128x2048 32 [1] iota_S128x2048_d1_w32)
        (addi (broadcast S128x2048 (Scalar.muli (BitVec.ofNat 32 (i 1).val) 128#32))
          (iota .tc S128x2048 32 [0] iota_S128x2048_d0_w32)) (ix2 r k)
      = if k.val ≤ (i 1).val * 128 + r.val then 1#1 else 0#1 := by
  have hq : (i 1).val < 16 := (i 1).isLt
  have hr : r.val < 128 := r.isLt
  have hk : k.val < 2048 := k.isLt
  show IntOp.cmpi .sle (iota .tc S128x2048 32 [1] iota_S128x2048_d1_w32 (ix2 r k))
      (BitVec.ofNat 32 (i 1).val * 128#32 + iota .tc S128x2048 32 [0] iota_S128x2048_d0_w32 (ix2 r k)) = _
  rw [iota_single_apply, iota_single_apply]
  show IntOp.cmpi .sle (BitVec.ofNat 32 k.val) (BitVec.ofNat 32 (i 1).val * BitVec.ofNat 32 128 + BitVec.ofNat 32 r.val) = _
  rw [← BitVec.ofNat_mul, ← BitVec.ofNat_add]
  exact sle_ofNat _ _ (by omega) (by omega)

/-- The body's masked scores, as one term of its two loaded blocks. -/
def maskedScores (i : grid1.Coords) (x0 : Vec Ideal S1x128x1024 .bf16) (x1 : Vec Ideal S1x2048x1024 .bf16) :
    FVec Ideal S128x2048 .f32 :=
  select
    (cmpi .sle (iota .tc S128x2048 32 [1] iota_S128x2048_d1_w32)
      (addi (broadcast S128x2048 (Scalar.muli (BitVec.ofNat 32 (i 1).val) 128#32))
        (iota .tc S128x2048 32 [0] iota_S128x2048_d0_w32)))
    (mulf (matmul dot_S128x1024_S2048x1024_S128x2048_1_1_0_0_n_n none
        (shapeCast S128x1024 x0 shapeCasts_S1x128x1024_S128x1024 : FVec Ideal S128x1024 .bf16)
        (shapeCast S2048x1024 x1 shapeCasts_S1x2048x1024_S2048x1024 : FVec Ideal S2048x1024 .bf16)
        (constant S128x2048 .f32 0x00000000#32))
      (broadcast S128x2048 (Scalar.ofBits .f32 0x3D000000#32 : Ideal .f32)))
    (broadcast S128x2048 (Named.named Cert.KernelIdeal.κ "neg_big" 0xF149F2CA#32 : Ideal .f32))

theorem maskedScores_at (i : grid1.Coords) (x0 : Vec Ideal S1x128x1024 .bf16) (x1 : Vec Ideal S1x2048x1024 .bf16)
    (r : Fin 128) (k : Fin 2048) : maskedScores i x0 x1 (ix2 r k) = blockScore i x0 x1 r k := by
  unfold maskedScores blockScore
  rw [select_apply, mask_at]
  split
  · rw [select_one]
    show FloatOps.matmul dot_S128x1024_S2048x1024_S128x2048_1_1_0_0_n_n none
        (shapeCast S128x1024 x0 shapeCasts_S1x128x1024_S128x1024 : FVec Ideal S128x1024 .bf16)
        (shapeCast S2048x1024 x1 shapeCasts_S1x2048x1024_S2048x1024 : FVec Ideal S2048x1024 .bf16)
        (constant (F := Ideal) S128x2048 .f32 0x00000000#32) (ix2 r k)
        * Ideal.ofBits .f32 0x3D000000#32 = scMul _
    unfold scMul
    refine congrArg (· * Ideal.ofBits .f32 0x3D000000#32) ?_
    refine (Cert.LibContractLast.matmulLast_zero_apply 128 1024 2048
      dot_S128x1024_S2048x1024_S128x2048_1_1_0_0_n_n.wf none _ _ r k).trans ?_
    refine Finset.sum_congr rfl fun d _ => ?_
    rw [shapeCast_1ab_ab_apply, shapeCast_1ab_ab_apply]
  · rw [select_zero]
    exact neg_big

/-- The body's attention weights are the softmax of its masked scores, row by row (the payload unfolds to this). -/
theorem pay1_eq (i : grid1.Coords) (x0 : Vec Ideal S1x128x1024 .bf16) (x1 : Vec Ideal S1x2048x1024 .bf16) :
    k1_pay1 (F := Ideal) i x0 x1
      = divf
        (exp (subf (maskedScores i x0 x1) (broadcastTo S128x2048 (shapeCast S128x1
          (multiReduction .maximumf [1] S128 (maskedScores i x0 x1) 0xFF800000#32 reduces_S128x2048_S128 (.inl rfl) rfl) shapeCasts_S128_S128x1)
          broadcasts_S128x1_S128x2048)))
        (broadcastTo S128x2048 (shapeCast S128x1
          (multiReduction .add [1] S128
            (exp (subf (maskedScores i x0 x1) (broadcastTo S128x2048 (shapeCast S128x1
              (multiReduction .maximumf [1] S128 (maskedScores i x0 x1) 0xFF800000#32 reduces_S128x2048_S128 (.inl rfl) rfl) shapeCasts_S128_S128x1)
              broadcasts_S128x1_S128x2048)))
            0x00000000#32 reduces_S128x2048_S128 (.inl rfl) rfl) shapeCasts_S128_S128x1) broadcasts_S128x1_S128x2048) := rfl

/-- THE WEIGHTS of a block at `(r, k)`: the softmax of row `r` of the block's masked scores. -/
theorem pay1_at (i : grid1.Coords) (x0 : Vec Ideal S1x128x1024 .bf16) (x1 : Vec Ideal S1x2048x1024 .bf16)
    (r : Fin 128) (k : Fin 2048) :
    k1_pay1 (F := Ideal) i x0 x1 (ix2 r k) = rowSoftmax (fun k' : Fin 2048 => blockScore i x0 x1 r k') k := by
  rw [pay1_eq]
  refine (softmaxRows_at (maskedScores i x0 x1) _ _ _ _ r k).trans ?_
  exact congrArg (fun f => rowSoftmax f k) (funext fun k' => maskedScores_at i x0 x1 r k')

/-- The weights as stored: the same entries under a leading unit axis. -/
theorem pay3_at (i : grid1.Coords) (x0 : Vec Ideal S1x128x1024 .bf16) (x1 : Vec Ideal S1x2048x1024 .bf16)
    (u : Fin 1) (r : Fin 128) (k : Fin 2048) :
    k1_pay3 (F := Ideal) i x0 x1 (ix3 u r k) = rowSoftmax (fun k' : Fin 2048 => blockScore i x0 x1 r k') k := by
  unfold k1_pay3
  exact (shapeCast_ab_1ab_apply _ shapeCasts_S128x2048_S1x128x2048 u r k).trans (pay1_at i x0 x1 r k)

/-- THE CONTEXT ROWS of a block at `(r, d)`: the weights of row `r` against column `d` of the value rows. -/
theorem pay2_at (i : grid1.Coords) (x0 : Vec Ideal S1x128x1024 .bf16) (x1 x2 : Vec Ideal S1x2048x1024 .bf16)
    (u : Fin 1) (r : Fin 128) (d : Fin 1024) :
    k1_pay2 (F := Ideal) i x0 x1 x2 (ix3 u r d)
      = ∑ k : Fin 2048, rowSoftmax (fun k' : Fin 2048 => blockScore i x0 x1 r k') k * x2 (ix3 (0 : Fin 1) k d) := by
  unfold k1_pay2
  refine (shapeCast_ab_1ab_apply _ shapeCasts_S128x1024_S1x128x1024 u r d).trans ?_
  show FloatOps.matmul dot_S128x2048_S2048x1024_S128x1024_1_0_0_1_n_n none
      (truncf .bf16 (k1_pay1 (F := Ideal) i x0 x1) bitsLt_bf16_f32 : FVec Ideal S128x2048 .bf16)
      (shapeCast S2048x1024 x2 shapeCasts_S1x2048x1024_S2048x1024 : FVec Ideal S2048x1024 .bf16)
      (constant (F := Ideal) S128x1024 .f32 0x00000000#32) (ix2 r d) = _
  refine (Cert.LibContractPlain.matmulPlain_zero_apply 128 2048 1024
    dot_S128x2048_S2048x1024_S128x1024_1_0_0_1_n_n.wf none _ _ r d).trans ?_
  refine Finset.sum_congr rfl fun k _ => ?_
  rw [shapeCast_1ab_ab_apply]
  exact congrArg (· * x2 (ix3 (0 : Fin 1) k d)) (pay1_at i x0 x1 r k)

/-- A block's masked scores are the array's: when row `r` of the query block is row `q = 128 · qi + r` of batch `b`
    and the key block is batch `b`'s key rows. -/
theorem blockScore_eq (i : grid1.Coords) (x0 : Vec Ideal S1x128x1024 .bf16) (x1 : Vec Ideal S1x2048x1024 .bf16)
    (Q K : Arr3 4 2048 1024) (b : Fin 4) (q : Fin 2048) (r : Fin 128) (hq : q.val = (i 1).val * 128 + r.val)
    (h0 : ∀ d : Fin 1024, x0 (ix3 (0 : Fin 1) r d) = Q (ix3 b q d))
    (h1 : ∀ (k' : Fin 2048) (d : Fin 1024), x1 (ix3 (0 : Fin 1) k' d) = K (ix3 b k' d)) (k' : Fin 2048) :
    blockScore i x0 x1 r k' = maskedScore scMul Q K b q k' := by
  unfold blockScore maskedScore
  rw [hq]
  refine if_congr Iff.rfl (congrArg scMul (Finset.sum_congr rfl fun d _ => ?_)) rfl
  rw [h0, h1]

end Cert.KernelIdeal.AttnBody

end
-- ==== Proof.ValueAttn.lean ====
/-
  What the attention region leaves in its two output arrays, as whole-array functions of the arrays it finds.

  Grid point `(b, qi)` reads query rows `128 · qi … 128 · qi + 127` of batch `b` and all of batch `b`'s key and
  value rows, and writes rows `128 · qi …` of batch `b` of both outputs. Row `r` of its weights is the softmax of the
  masked scores of query position `q = 128 · qi + r`, which is row `(b, q)` of the whole array of weights; its
  context rows are those weights against the value rows. The 64 blocks tile each output array, so after the region
  the arrays hold the weights `attn` and the averages `ctx` of the arrays the region found.
-/
import proofs.«169576_j4982162063789_2_alg».proof.Proof.KernelIdealFrameP
import proofs.«169576_j4982162063789_2_alg».proof.Proof.AttnBody
import Idealize.ShloMosaic.Lib.Pipeline.Value

set_option maxRecDepth 16384

noncomputable section

open scoped BigOperators

namespace Cert.KernelIdeal.GenP

open Idealize.ShloMosaic Idealize.ShloMosaic.TcCoe Idealize.SL.Sem Cert.KernelIdeal Cert.KernelIdeal.Gen
open Idealize.ShloMosaic.Pipeline Idealize.ShloMosaic.ValueIdx Cert.Attn Cert.KernelIdeal.AttnBody

variable (V : (c : Dev nD) → (b : Ref sig .tc) → Buf (Elt Ideal) ((c : Thread nD τ).loc b))

theorem hz3 : (![0, 0, 0] : Fin 3 → Nat) = fun _ => 0 := funext fun a => by fin_cases a <;> rfl

/-- The block indices of the five windows at a grid point, decided over the grid: the batch `b` and the query tile
    `qi` are the point's two coordinates; the key and value windows take all of batch `b`. -/
theorem idx_facts1 : ∀ t : Fin cfg1.N,
    win1_0.index t (0 : Fin 3) = win1_4.index t (0 : Fin 3) ∧ win1_0.index t (1 : Fin 3) = win1_4.index t (1 : Fin 3)
    ∧ win1_0.index t (2 : Fin 3) = 0
    ∧ win1_1.index t (0 : Fin 3) = win1_4.index t (0 : Fin 3) ∧ win1_1.index t (1 : Fin 3) = 0 ∧ win1_1.index t (2 : Fin 3) = 0
    ∧ win1_2.index t (0 : Fin 3) = win1_4.index t (0 : Fin 3) ∧ win1_2.index t (1 : Fin 3) = 0 ∧ win1_2.index t (2 : Fin 3) = 0
    ∧ win1_3.index t (0 : Fin 3) = win1_4.index t (0 : Fin 3) ∧ win1_3.index t (1 : Fin 3) = win1_4.index t (1 : Fin 3)
    ∧ win1_3.index t (2 : Fin 3) = 0
    ∧ win1_4.index t (2 : Fin 3) = 0 ∧ win1_4.index t (1 : Fin 3) = (grid1.coords t (1 : Fin 2)).val
    ∧ win1_4.index t (0 : Fin 3) < 4 ∧ win1_4.index t (1 : Fin 3) < 16 :=
  (by decide +kernel : ∀ t : Fin grid1.N, _)

/-- Every (batch, query tile) is some point's. -/
theorem idx_onto1 : ∀ (q0 : Fin 4) (q1 : Fin 16), ∃ t : Fin cfg1.N,
    win1_4.index t = ![q0.val, q1.val, 0] ∧ win1_3.index t = ![q0.val, q1.val, 0] :=
  (by decide +kernel : ∀ (q0 : Fin 4) (q1 : Fin 16), ∃ t : Fin grid1.N,
    win1_4.index t = ![q0.val, q1.val, 0] ∧ win1_3.index t = ![q0.val, q1.val, 0])

/-- The query block at a point: row `r` is row `128 · qi + r` of batch `b`. -/
theorem qblock_at (c : Dev nD) (t : Fin cfg1.N) (b : Fin 4) (q : Fin 2048) (r : Fin 128) (d : Fin 1024)
    (hb : b.val = win1_4.index t (0 : Fin 3)) (hq : q.val = win1_4.index t (1 : Fin 3) * 128 + r.val) :
    iblk1 V c 0 t (ix3 (0 : Fin 1) r d) = V c main_v13 (ix3 b q d) := by
  obtain ⟨e00, e01, e02, -⟩ := idx_facts1 t
  show V c main_v13 (((cfg1.win 0).blk t).view.emb (ix3 (0 : Fin 1) r d)) = _
  refine congrArg (V c main_v13) ?_
  funext a; apply Fin.ext
  match a with
  | ⟨0, _⟩ => show win1_0.index t (0 : Fin 3) * 1 + 1 * 0 = b.val; omega
  | ⟨1, _⟩ => show win1_0.index t (1 : Fin 3) * 128 + 1 * r.val = q.val; omega
  | ⟨2, _⟩ => show win1_0.index t (2 : Fin 3) * 1024 + 1 * d.val = d.val; omega

/-- The key block at a point: all of batch `b`'s key rows. -/
theorem kblock_at (c : Dev nD) (t : Fin cfg1.N) (b : Fin 4) (k : Fin 2048) (d : Fin 1024)
    (hb : b.val = win1_4.index t (0 : Fin 3)) :
    iblk1 V c 1 t (ix3 (0 : Fin 1) k d) = V c main_v14 (ix3 b k d) := by
  obtain ⟨-, -, -, e10, e11, e12, -⟩ := idx_facts1 t
  show V c main_v14 (((cfg1.win 1).blk t).view.emb (ix3 (0 : Fin 1) k d)) = _
  refine congrArg (V c main_v14) ?_
  funext a; apply Fin.ext
  match a with
  | ⟨0, _⟩ => show win1_1.index t (0 : Fin 3) * 1 + 1 * 0 = b.val; omega
  | ⟨1, _⟩ => show win1_1.index t (1 : Fin 3) * 2048 + 1 * k.val = k.val; omega
  | ⟨2, _⟩ => show win1_1.index t (2 : Fin 3) * 1024 + 1 * d.val = d.val; omega

/-- The value block at a point: all of batch `b`'s value rows. -/
theorem vblock_at (c : Dev nD) (t : Fin cfg1.N) (b : Fin 4) (k : Fin 2048) (d : Fin 1024)
    (hb : b.val = win1_4.index t (0 : Fin 3)) :
    iblk1 V c 2 t (ix3 (0 : Fin 1) k d) = V c main_v15 (ix3 b k d) := by
  obtain ⟨-, -, -, -, -, -, e20, e21, e22, -⟩ := idx_facts1 t
  show V c main_v15 (((cfg1.win 2).blk t).view.emb (ix3 (0 : Fin 1) k d)) = _
  refine congrArg (V c main_v15) ?_
  funext a; apply Fin.ext
  match a with
  | ⟨0, _⟩ => show win1_2.index t (0 : Fin 3) * 1 + 1 * 0 = b.val; omega
  | ⟨1, _⟩ => show win1_2.index t (1 : Fin 3) * 2048 + 1 * k.val = k.val; omega
  | ⟨2, _⟩ => show win1_2.index t (2 : Fin 3) * 1024 + 1 * d.val = d.val; omega

/-- The masked scores of row `r` of a point's query block are those of query position `128 · qi + r` of batch `b`. -/
theorem scores_at (c : Dev nD) (t : Fin cfg1.N) (b : Fin 4) (q : Fin 2048) (r : Fin 128)
    (hb : b.val = win1_4.index t (0 : Fin 3)) (hq : q.val = win1_4.index t (1 : Fin 3) * 128 + r.val) :
    (fun k' : Fin 2048 => blockScore (grid1.coords t) (iblk1 V c 0 t) (iblk1 V c 1 t) r k')
      = fun k' : Fin 2048 => maskedScore scMul (V c main_v13) (V c main_v14) b q k' := by
  have e := (idx_facts1 t).2.2.2.2.2.2.2.2.2.2.2.2.2.1
  funext k'
  exact blockScore_eq (grid1.coords t) (iblk1 V c 0 t) (iblk1 V c 1 t) (V c main_v13) (V c main_v14) b q r
    (by rw [hq, e]) (fun d => qblock_at V c t b q r d hb hq) (fun k'' d => kblock_at V c t b k'' d hb) k'

/-! ## The weights (output window 4) -/

/-- WHAT A POINT WRITES BACK into the array of weights is its block of `attn` of the query and key arrays. -/
theorem flushed1_4_eq (c : Dev nD) (t : Fin cfg1.N) :
    (dat1 V c).flushed 4 t
      = ((cfg1.win 4).blk t).view.read (Elt Ideal) (attn scMul (V c main_v13) (V c main_v14)) := by
  show (cfg1.win 4).cut (grid1.coords t) ((dat1 V c).after 4 t) = _
  rw [after1_4]
  unfold out1_4
  rw [View.canon_unit_zero hz3]
  simp only [View.ld_unit_zero (S := S1x128x1024) hz3, View.ld_unit_zero (S := S1x2048x1024) hz3]
  have hf := idx_facts1 t
  have hb4 : win1_4.index t (0 : Fin 3) < 4 := hf.2.2.2.2.2.2.2.2.2.2.2.2.2.2.1
  have hq16 : win1_4.index t (1 : Fin 3) < 16 := hf.2.2.2.2.2.2.2.2.2.2.2.2.2.2.2
  have h42 : win1_4.index t (2 : Fin 3) = 0 := hf.2.2.2.2.2.2.2.2.2.2.2.2.1
  funext j
  obtain ⟨u, r, k, rfl⟩ : ∃ (u : Fin 1) (r : Fin 128) (k : Fin 2048), j = ix3 u r k := ⟨j 0, j 1, j 2, eq_ix3 j⟩
  have hr : r.val < 128 := r.isLt
  have hu : u.val = 0 := by omega
  let b : Fin 4 := ⟨win1_4.index t (0 : Fin 3), hb4⟩
  let q : Fin 2048 := ⟨win1_4.index t (1 : Fin 3) * 128 + r.val, by omega⟩
  have hemb : ((cfg1.win 4).blk t).view.emb (ix3 u r k) = ix3 b q k := by
    funext a; apply Fin.ext
    match a with
    | ⟨0, _⟩ => show win1_4.index t (0 : Fin 3) * 1 + 1 * u.val = win1_4.index t (0 : Fin 3); omega
    | ⟨1, _⟩ => show win1_4.index t (1 : Fin 3) * 128 + 1 * r.val = win1_4.index t (1 : Fin 3) * 128 + r.val; omega
    | ⟨2, _⟩ => show win1_4.index t (2 : Fin 3) * 2048 + 1 * k.val = k.val; omega
  show k1_pay3 (F := Ideal) (grid1.coords t) (iblk1 V c 0 t) (iblk1 V c 1 t) (ix3 u r k)
    = attn scMul (V c main_v13) (V c main_v14) (((cfg1.win 4).blk t).view.emb (ix3 u r k))
  rw [hemb, attn_apply, pay3_at, scores_at V c t b q r rfl rfl]

/-- An index of the array of weights is in a point's block iff each coordinate is in the block's range. -/
theorem mem_blk1_4 (t : Fin cfg1.N) (i : S4x2048x2048.Idx) :
    i ∈ ((cfg1.win 4).blk t).view.set ↔ ∀ a : Fin 3, win1_4.index t a * S1x128x2048.size a ≤ (i a).val
      ∧ (i a).val < win1_4.index t a * S1x128x2048.size a + S1x128x2048.size a := by
  show i ∈ ((View.whole main_v16_1).slice (win1_4.rect t)).set ↔ _
  rw [View.set_slice_whole, Rect.mem_set_unit]
  exact Iff.rfl

/-- Every entry of the array of weights is in some point's block: batch `i 0`, query tile `i 1 / 128`. -/
theorem cover1_4' (i : S4x2048x2048.Idx) :
    ∃ t : Fin cfg1.N, (cfg1.win 4).flush t = true ∧ i ∈ ((cfg1.win 4).blk t).view.set := by
  have hi0 : (i 0).val < 4 := (i 0).isLt
  have hi1 : (i 1).val < 2048 := (i 1).isLt
  have hi2 : (i 2).val < 2048 := (i 2).isLt
  obtain ⟨t, ht, -⟩ := idx_onto1 ⟨(i 0).val, hi0⟩ ⟨(i 1).val / 128, by omega⟩
  have q0 : win1_4.index t (0 : Fin 3) = (i 0).val := congrFun ht 0
  have q1 : win1_4.index t (1 : Fin 3) = (i 1).val / 128 := congrFun ht 1
  have q2 : win1_4.index t (2 : Fin 3) = 0 := congrFun ht 2
  refine ⟨t, flush1_4 t, ?_⟩
  rw [mem_blk1_4]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 128 ≤ (i 1).val ∧ (i 1).val < win1_4.index t (1 : Fin 3) * 128 + 128; omega
  | ⟨2, _⟩ => show win1_4.index t (2 : Fin 3) * 2048 ≤ (i 2).val ∧ (i 2).val < win1_4.index t (2 : Fin 3) * 2048 + 2048; omega

/-- THE ARRAY OF WEIGHTS after the region: `attn` of the query and key arrays the region found. -/
theorem final1_4 (c : Dev nD) :
    (dat1 V c).arrAt 4 cfg1.N = attn scMul (V c main_v13) (V c main_v14) :=
  (dat1 V c).arrAt_eq_of_cover 4 _ (fun t _ => flushed1_4_eq V c t) cover1_4'

/-! ## The context rows (output window 3) -/

/-- WHAT A POINT WRITES BACK into the context array is its block of `ctx` of the weights and the value array. -/
theorem flushed1_3_eq (c : Dev nD) (t : Fin cfg1.N) :
    (dat1 V c).flushed 3 t
      = ((cfg1.win 3).blk t).view.read (Elt Ideal)
          (ctx (attn scMul (V c main_v13) (V c main_v14)) (V c main_v15)) := by
  show (cfg1.win 3).cut (grid1.coords t) ((dat1 V c).after 3 t) = _
  rw [after1_3]
  unfold out1_3
  rw [View.canon_unit_zero hz3]
  simp only [View.ld_unit_zero (S := S1x128x1024) hz3, View.ld_unit_zero (S := S1x2048x1024) hz3]
  have hf := idx_facts1 t
  have hb4 : win1_4.index t (0 : Fin 3) < 4 := hf.2.2.2.2.2.2.2.2.2.2.2.2.2.2.1
  have hq16 : win1_4.index t (1 : Fin 3) < 16 := hf.2.2.2.2.2.2.2.2.2.2.2.2.2.2.2
  have e30 : win1_3.index t (0 : Fin 3) = win1_4.index t (0 : Fin 3) := hf.2.2.2.2.2.2.2.2.2.1
  have e31 : win1_3.index t (1 : Fin 3) = win1_4.index t (1 : Fin 3) := hf.2.2.2.2.2.2.2.2.2.2.1
  have e32 : win1_3.index t (2 : Fin 3) = 0 := hf.2.2.2.2.2.2.2.2.2.2.2.1
  funext j
  obtain ⟨u, r, d, rfl⟩ : ∃ (u : Fin 1) (r : Fin 128) (d : Fin 1024), j = ix3 u r d := ⟨j 0, j 1, j 2, eq_ix3 j⟩
  have hr : r.val < 128 := r.isLt
  have hu : u.val = 0 := by omega
  let b : Fin 4 := ⟨win1_4.index t (0 : Fin 3), hb4⟩
  let q : Fin 2048 := ⟨win1_4.index t (1 : Fin 3) * 128 + r.val, by omega⟩
  have hemb : ((cfg1.win 3).blk t).view.emb (ix3 u r d) = ix3 b q d := by
    funext a; apply Fin.ext
    match a with
    | ⟨0, _⟩ => show win1_3.index t (0 : Fin 3) * 1 + 1 * u.val = win1_4.index t (0 : Fin 3); omega
    | ⟨1, _⟩ => show win1_3.index t (1 : Fin 3) * 128 + 1 * r.val = win1_4.index t (1 : Fin 3) * 128 + r.val; omega
    | ⟨2, _⟩ => show win1_3.index t (2 : Fin 3) * 1024 + 1 * d.val = d.val; omega
  show k1_pay2 (F := Ideal) (grid1.coords t) (iblk1 V c 0 t) (iblk1 V c 1 t) (iblk1 V c 2 t) (ix3 u r d)
    = ctx (attn scMul (V c main_v13) (V c main_v14)) (V c main_v15) (((cfg1.win 3).blk t).view.emb (ix3 u r d))
  rw [hemb, ctx_apply, pay2_at, scores_at V c t b q r rfl rfl]
  refine Finset.sum_congr rfl fun k _ => ?_
  rw [attn_apply, vblock_at V c t b k d rfl]

theorem mem_blk1_3 (t : Fin cfg1.N) (i : S4x2048x1024.Idx) :
    i ∈ ((cfg1.win 3).blk t).view.set ↔ ∀ a : Fin 3, win1_3.index t a * S1x128x1024.size a ≤ (i a).val
      ∧ (i a).val < win1_3.index t a * S1x128x1024.size a + S1x128x1024.size a := by
  show i ∈ ((View.whole main_v16_0).slice (win1_3.rect t)).set ↔ _
  rw [View.set_slice_whole, Rect.mem_set_unit]
  exact Iff.rfl

theorem cover1_3' (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  obtain ⟨t, -, ht⟩ := idx_onto1 ⟨(i 0).val, hi0⟩ ⟨(i 1).val / 128, by omega⟩
  have q0 : win1_3.index t (0 : Fin 3) = (i 0).val := congrFun ht 0
  have q1 : win1_3.index t (1 : Fin 3) = (i 1).val / 128 := congrFun ht 1
  have q2 : win1_3.index t (2 : Fin 3) = 0 := congrFun ht 2
  refine ⟨t, flush1_3 t, ?_⟩
  rw [mem_blk1_3]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 128 ≤ (i 1).val ∧ (i 1).val < win1_3.index t (1 : Fin 3) * 128 + 128; omega
  | ⟨2, _⟩ => show win1_3.index t (2 : Fin 3) * 1024 ≤ (i 2).val ∧ (i 2).val < win1_3.index t (2 : Fin 3) * 1024 + 1024; omega

/-- THE CONTEXT ARRAY after the region: `ctx` of the weights and the value array the region found. -/
theorem final1_3 (c : Dev nD) :
    (dat1 V c).arrAt 3 cfg1.N = ctx (attn scMul (V c main_v13) (V c main_v14)) (V c main_v15) :=
  (dat1 V c).arrAt_eq_of_cover 3 _ (fun t _ => flushed1_3_eq V c t) cover1_3'

end Cert.KernelIdeal.GenP

end
-- ==== Proof.RefValue.lean ====
/-
  The reference program, read index by index over the extended reals, computes the specification's functions.

  Write `X` for the array of looked-up token rows (shape [4, 2048, 1024]; the lookup itself is never opened). The
  three contractions of `X` with the weight matrices are `proj X W`; the contraction of a query row with a key row is
  the raw score, and its quotient by `√1024` is `scDiv` of it. The lower-triangle mask is computed from two
  coordinate arrays by a signed comparison of 32-bit words of numbers below 2048, so its bit at `(q, k)` is set exactly
  when `k ≤ q`, and the selected value is `maskedScore`. The maximum over the last axis, started from `-∞ = ⊥`, is the
  fold `rowMax`, and the further maximum with `⊥` changes nothing; subtracting it, taking exponentials, summing them
  from `0` along the row and dividing is `rowSoftmax`: the weights are `attn`. Contracting the weights with the value
  rows is `ctx`, and the last contraction with the output table plus the broadcast bias is `logits`.
-/
import proofs.«169576_j4982162063789_2_alg».proof.Proof.Gen.ReferenceIdeal.Read
import proofs.«169576_j4982162063789_2_alg».proof.Proof.Consts
import Idealize.ShloMosaic.Lib.ValueIdx
import Idealize.ShloMosaic.Lib.Affine
import Idealize.ShloMosaic.PureOps.Ideal.Laws
import Idealize.ShloMosaic.PureOps.Reduce

noncomputable section

open scoped BigOperators

namespace Cert.ReferenceIdeal.RefValue

open Idealize.ShloMosaic Idealize.ShloMosaic.TcCoe Idealize.SL.Sem Cert.ReferenceIdeal Cert.ReferenceIdeal.Gen
  Cert.ReferenceIdeal.Read Cert.Attn Idealize.ShloMosaic.ValueIdx

/-- The query projection: `X · x2ᵀ`. -/
theorem ref_q (x0 : (⟨S4x2048, .i32⟩ : BufTy).Contents (Elt Ideal)) (x1 : (⟨S32000x1024, .f32⟩ : BufTy).Contents (Elt Ideal)) (x2 : (⟨S1024x1024, .f32⟩ : BufTy).Contents (Elt Ideal)) :
    val_main_v7 (F := Ideal) x0 x1 x2 = proj (val_main_v6 (F := Ideal) x0 x1) x2 := by
  funext i
  rw [val_main_v7_apply]
  generalize val_main_v6 (F := Ideal) x0 x1 = X
  show _ = ∑ d : Fin 1024, X (ix3 (i 0) (i 1) d) * x2 (ix2 (i 2) d)
  refine Finset.sum_congr rfl fun k _ => ?_
  congr 1
  · exact congrArg X (funext fun a => by match a with | ⟨0, _⟩ => rfl | ⟨1, _⟩ => rfl | ⟨2, _⟩ => rfl)
  · exact congrArg x2 (funext fun a => by match a with | ⟨0, _⟩ => rfl | ⟨1, _⟩ => rfl)

/-- The key projection: `X · x3ᵀ`. -/
theorem ref_k (x0 : (⟨S4x2048, .i32⟩ : BufTy).Contents (Elt Ideal)) (x1 : (⟨S32000x1024, .f32⟩ : BufTy).Contents (Elt Ideal)) (x3 : (⟨S1024x1024, .f32⟩ : BufTy).Contents (Elt Ideal)) :
    val_main_v8 (F := Ideal) x0 x1 x3 = proj (val_main_v6 (F := Ideal) x0 x1) x3 := by
  funext i
  rw [val_main_v8_apply]
  generalize val_main_v6 (F := Ideal) x0 x1 = X
  show _ = ∑ d : Fin 1024, X (ix3 (i 0) (i 1) d) * x3 (ix2 (i 2) d)
  refine Finset.sum_congr rfl fun k _ => ?_
  congr 1
  · exact congrArg X (funext fun a => by match a with | ⟨0, _⟩ => rfl | ⟨1, _⟩ => rfl | ⟨2, _⟩ => rfl)
  · exact congrArg x3 (funext fun a => by match a with | ⟨0, _⟩ => rfl | ⟨1, _⟩ => rfl)

/-- The value projection: `X · x4ᵀ`. -/
theorem ref_v (x0 : (⟨S4x2048, .i32⟩ : BufTy).Contents (Elt Ideal)) (x1 : (⟨S32000x1024, .f32⟩ : BufTy).Contents (Elt Ideal)) (x4 : (⟨S1024x1024, .f32⟩ : BufTy).Contents (Elt Ideal)) :
    val_main_v9 (F := Ideal) x0 x1 x4 = proj (val_main_v6 (F := Ideal) x0 x1) x4 := by
  funext i
  rw [val_main_v9_apply]
  generalize val_main_v6 (F := Ideal) x0 x1 = X
  show _ = ∑ d : Fin 1024, X (ix3 (i 0) (i 1) d) * x4 (ix2 (i 2) d)
  refine Finset.sum_congr rfl fun k _ => ?_
  congr 1
  · exact congrArg X (funext fun a => by match a with | ⟨0, _⟩ => rfl | ⟨1, _⟩ => rfl | ⟨2, _⟩ => rfl)
  · exact congrArg x4 (funext fun a => by match a with | ⟨0, _⟩ => rfl | ⟨1, _⟩ => rfl)

/-- The raw score of key position `k` for query position `q`: the inner product of the two projected rows. -/
theorem ref_score (x0 : (⟨S4x2048, .i32⟩ : BufTy).Contents (Elt Ideal)) (x1 : (⟨S32000x1024, .f32⟩ : BufTy).Contents (Elt Ideal)) (x2 x3 : (⟨S1024x1024, .f32⟩ : BufTy).Contents (Elt Ideal)) (b : Fin 4) (q k : Fin 2048) :
    val_main_v10 (F := Ideal) x0 x1 x2 x3 (ix3 b q k)
      = ∑ d : Fin 1024, val_main_v7 (F := Ideal) x0 x1 x2 (ix3 b q d) * val_main_v8 (F := Ideal) x0 x1 x3 (ix3 b k d) := by
  rw [val_main_v10_apply]
  generalize val_main_v7 (F := Ideal) x0 x1 x2 = Q
  generalize val_main_v8 (F := Ideal) x0 x1 x3 = K
  refine Finset.sum_congr rfl fun d _ => ?_
  congr 1
  · exact congrArg Q (funext fun a => by match a with | ⟨0, _⟩ => rfl | ⟨1, _⟩ => rfl | ⟨2, _⟩ => rfl)
  · exact congrArg K (funext fun a => by match a with | ⟨0, _⟩ => rfl | ⟨1, _⟩ => rfl | ⟨2, _⟩ => rfl)

/-- The rescaled score: the quotient by `√1024`. -/
theorem ref_scaled (x0 : (⟨S4x2048, .i32⟩ : BufTy).Contents (Elt Ideal)) (x1 : (⟨S32000x1024, .f32⟩ : BufTy).Contents (Elt Ideal)) (x2 x3 : (⟨S1024x1024, .f32⟩ : BufTy).Contents (Elt Ideal)) (i : S4x2048x2048.Idx) :
    val_main_v13 (F := Ideal) x0 x1 x2 x3 i = scDiv (val_main_v10 (F := Ideal) x0 x1 x2 x3 i) := by
  rw [val_main_v13_apply, val_main_v12_apply, val_main_v11_apply, val_main_cst_apply]
  rfl

/-- A number below 2048, written as a 32-bit word, reads back as itself when the word is read signed. -/
theorem toInt_ofNat_small (a : Nat) (ha : a < 2048) : (BitVec.ofNat 32 a).toInt = (a : Int) := by
  have hN : (BitVec.ofNat 32 a).toNat = a := by rw [BitVec.toNat_ofNat]; omega
  rw [BitVec.toInt_eq_toNat_of_lt (by rw [hN]; omega), hN]

/-- The signed comparison `a + 0 ≥ c` on words of numbers below 2048 is the comparison of the numbers. -/
theorem sge_ofNat (a c : Nat) (ha : a < 2048) (hc : c < 2048) :
    IntOp.cmpi .sge (IntOp.addi (BitVec.ofNat 32 a) 0#32) (BitVec.ofNat 32 c) = if c ≤ a then 1#1 else 0#1 := by
  have h0 : IntOp.addi (BitVec.ofNat 32 a) 0#32 = BitVec.ofNat 32 a := BitVec.add_zero _
  rw [h0]
  by_cases h : c ≤ a
  · rw [if_pos h]
    refine IntOp.cmpi_sge.mpr ?_
    rw [toInt_ofNat_small a ha, toInt_ofNat_small c hc]
    exact_mod_cast h
  · rw [if_neg h]
    refine eq_zero_of_ne_one fun h1 => h ?_
    have h2 := IntOp.cmpi_sge.mp h1
    rw [toInt_ofNat_small a ha, toInt_ofNat_small c hc] at h2
    exact_mod_cast h2

/-- The lower-triangle mask: the bit at `(q, k)` is set exactly when `k ≤ q`. -/
theorem tril_bit (q k : Fin 2048) :
    val_main_v15 (F := Ideal) (ix2 q k) = if k.val ≤ q.val then 1#1 else 0#1 := by
  rw [val_main_v15_apply, val_main_call0_v4_apply, val_main_call0_v2_apply, val_main_call0_v0_apply,
    val_main_call0_v1_apply, val_main_call0_c_apply, val_main_call0_v3_apply, val_main_v14_apply, val_main_c_1_apply,
    val_main_call0_v5_apply, val_main_call0_c_0_apply]
  show Scalar.select (IntOp.cmpi .sge (IntOp.addi (BitVec.ofNat 32 q.val) 0#32) (BitVec.ofNat 32 k.val)) 1#1 0#1 = _
  rw [sge_ofNat q.val k.val q.isLt k.isLt]
  by_cases h : k.val ≤ q.val
  · rw [if_pos h, select_one]
  · rw [if_neg h, select_zero]

/-- The masked score: the rescaled inner product on and below the diagonal, `⊥` above it. -/
theorem ref_masked (x0 : (⟨S4x2048, .i32⟩ : BufTy).Contents (Elt Ideal)) (x1 : (⟨S32000x1024, .f32⟩ : BufTy).Contents (Elt Ideal)) (x2 x3 : (⟨S1024x1024, .f32⟩ : BufTy).Contents (Elt Ideal)) (b : Fin 4) (q k : Fin 2048) :
    val_main_v17 (F := Ideal) x0 x1 x2 x3 (ix3 b q k)
      = maskedScore scDiv (val_main_v7 (F := Ideal) x0 x1 x2) (val_main_v8 (F := Ideal) x0 x1 x3) b q k := by
  rw [val_main_v17_apply, val_main_call1_v1_apply, val_main_v16_apply,
    show idx_main_v16 (idx_main_call1_v1 (ix3 b q k)) = ix2 q k from
      funext fun a => by match a with | ⟨0, _⟩ => rfl | ⟨1, _⟩ => rfl,
    tril_bit, val_main_call1_v2_apply, val_main_call1_v0_apply, val_main_cst_2_apply, ref_scaled, ref_score]
  unfold maskedScore
  by_cases h : k.val ≤ q.val
  · rw [if_pos h, if_pos h, select_one]
  · rw [if_neg h, if_neg h, select_zero]; exact ofBits_neg_inf

/-- The row maximum: the fold of `max` from `⊥` over the row's masked scores. -/
theorem ref_rowmax (x0 : (⟨S4x2048, .i32⟩ : BufTy).Contents (Elt Ideal)) (x1 : (⟨S32000x1024, .f32⟩ : BufTy).Contents (Elt Ideal)) (x2 x3 : (⟨S1024x1024, .f32⟩ : BufTy).Contents (Elt Ideal)) (b : Fin 4) (q : Fin 2048) :
    val_main_v18 (F := Ideal) x0 x1 x2 x3 (ix2 b q)
      = rowMax (fun k : Fin 2048 => val_main_v17 (F := Ideal) x0 x1 x2 x3 (ix3 b q k)) := by
  unfold val_main_v18
  generalize val_main_v17 (F := Ideal) x0 x1 x2 x3 = y
  refine (Host.reduce_eq_fold_single (FloatOps.maximumf (F := Ideal) (φ := .f32)) y (val_main_cst_3 (F := Ideal))
    reducesTo_S4x2048x2048_S4x2048_d2 (by decide) h_S_ (ix2 b q)).trans ?_
  unfold rowMax
  show (Finset.univ : Finset (Fin 2048)).fold max (Ideal.ofBits .f32 0xFF800000#32) _ = _
  rw [ofBits_neg_inf]
  refine Finset.fold_congr fun k _ => ?_
  exact congrArg y (funext fun a => Fin.ext (by match a with | ⟨0, _⟩ => rfl | ⟨1, _⟩ => rfl | ⟨2, _⟩ => rfl))

/-- The value subtracted along row `(b, q)`: the row maximum itself, since `max ⊥ m = m`. -/
theorem ref_shift (x0 : (⟨S4x2048, .i32⟩ : BufTy).Contents (Elt Ideal)) (x1 : (⟨S32000x1024, .f32⟩ : BufTy).Contents (Elt Ideal)) (x2 x3 : (⟨S1024x1024, .f32⟩ : BufTy).Contents (Elt Ideal)) (b : Fin 4) (q k : Fin 2048) :
    val_main_v22 (F := Ideal) x0 x1 x2 x3 (ix3 b q k)
      = rowMax (fun k' : Fin 2048 => val_main_v17 (F := Ideal) x0 x1 x2 x3 (ix3 b q k')) := by
  rw [val_main_v22_apply, val_main_v21_apply,
    show idx_main_v21 (idx_main_v22 (ix3 b q k)) = ix2 b q from
      funext fun a => by match a with | ⟨0, _⟩ => rfl | ⟨1, _⟩ => rfl,
    val_main_v20_apply, val_main_v19_apply, val_main_cst_4_apply, ref_rowmax]
  show max (Ideal.ofBits .f32 0xFF800000#32) _ = _
  rw [ofBits_neg_inf]
  exact max_eq_right bot_le

/-- The exponential of the shifted score. -/
theorem ref_exp (x0 : (⟨S4x2048, .i32⟩ : BufTy).Contents (Elt Ideal)) (x1 : (⟨S32000x1024, .f32⟩ : BufTy).Contents (Elt Ideal)) (x2 x3 : (⟨S1024x1024, .f32⟩ : BufTy).Contents (Elt Ideal)) (b : Fin 4) (q k : Fin 2048) :
    val_main_v24 (F := Ideal) x0 x1 x2 x3 (ix3 b q k)
      = Ideal.exp (val_main_v17 (F := Ideal) x0 x1 x2 x3 (ix3 b q k)
          - rowMax (fun k' : Fin 2048 => val_main_v17 (F := Ideal) x0 x1 x2 x3 (ix3 b q k'))) := by
  rw [val_main_v24_apply, val_main_v23_apply, ref_shift]
  rfl

/-- The row sum of the exponentials (the sum starts from `0`). -/
theorem ref_rowsum (x0 : (⟨S4x2048, .i32⟩ : BufTy).Contents (Elt Ideal)) (x1 : (⟨S32000x1024, .f32⟩ : BufTy).Contents (Elt Ideal)) (x2 x3 : (⟨S1024x1024, .f32⟩ : BufTy).Contents (Elt Ideal)) (b : Fin 4) (q : Fin 2048) :
    val_main_v25 (F := Ideal) x0 x1 x2 x3 (ix2 b q)
      = ∑ k : Fin 2048, val_main_v24 (F := Ideal) x0 x1 x2 x3 (ix3 b q k) := by
  rw [val_main_v25_apply, val_main_cst_5_apply]
  show Ideal.ofBits .f32 0x00000000#32 + _ = _
  rw [ofBits_zero, zero_add]
  refine Finset.sum_congr rfl fun k _ => ?_
  exact congrArg _ (funext fun a => by match a with | ⟨0, _⟩ => rfl | ⟨1, _⟩ => rfl | ⟨2, _⟩ => rfl)

/-- The weight at `(b, q, k)`: the softmax of row `(b, q)` of the masked scores, at `k`. -/
theorem ref_weights (x0 : (⟨S4x2048, .i32⟩ : BufTy).Contents (Elt Ideal)) (x1 : (⟨S32000x1024, .f32⟩ : BufTy).Contents (Elt Ideal)) (x2 x3 : (⟨S1024x1024, .f32⟩ : BufTy).Contents (Elt Ideal)) (b : Fin 4) (q k : Fin 2048) :
    val_main_v28 (F := Ideal) x0 x1 x2 x3 (ix3 b q k)
      = rowSoftmax (fun k' : Fin 2048 => val_main_v17 (F := Ideal) x0 x1 x2 x3 (ix3 b q k')) k := by
  rw [val_main_v28_apply, val_main_v27_apply, val_main_v26_apply,
    show idx_main_v26 (idx_main_v27 (ix3 b q k)) = ix2 b q from
      funext fun a => by match a with | ⟨0, _⟩ => rfl | ⟨1, _⟩ => rfl,
    ref_rowsum]
  unfold rowSoftmax
  show Ideal.div _ _ = Ideal.div _ _
  rw [ref_exp]
  refine congrArg (Ideal.div _) (Finset.sum_congr rfl fun k' _ => ?_)
  exact ref_exp x0 x1 x2 x3 b q k'

/-- The reference's attention weights are the specification's. -/
theorem ref_attn (x0 : (⟨S4x2048, .i32⟩ : BufTy).Contents (Elt Ideal)) (x1 : (⟨S32000x1024, .f32⟩ : BufTy).Contents (Elt Ideal)) (x2 x3 : (⟨S1024x1024, .f32⟩ : BufTy).Contents (Elt Ideal)) :
    val_main_v28 (F := Ideal) x0 x1 x2 x3
      = attn scDiv (proj (val_main_v6 (F := Ideal) x0 x1) x2) (proj (val_main_v6 (F := Ideal) x0 x1) x3) := by
  funext i
  obtain ⟨b, q, k, rfl⟩ : ∃ (b : Fin 4) (q k : Fin 2048), i = ix3 b q k := ⟨i 0, i 1, i 2, eq_ix3 i⟩
  rw [ref_weights, attn_apply, ← ref_q x0 x1 x2, ← ref_k x0 x1 x3]
  refine congrFun (congrArg rowSoftmax (funext fun k' => ?_)) k
  exact ref_masked x0 x1 x2 x3 b q k'

/-- The weighted average of the value rows. -/
theorem ref_ctx (x0 : (⟨S4x2048, .i32⟩ : BufTy).Contents (Elt Ideal)) (x1 : (⟨S32000x1024, .f32⟩ : BufTy).Contents (Elt Ideal)) (x2 x3 x4 : (⟨S1024x1024, .f32⟩ : BufTy).Contents (Elt Ideal)) :
    val_main_v29 (F := Ideal) x0 x1 x2 x3 x4
      = ctx (val_main_v28 (F := Ideal) x0 x1 x2 x3) (val_main_v9 (F := Ideal) x0 x1 x4) := by
  funext i
  rw [val_main_v29_apply]
  generalize val_main_v28 (F := Ideal) x0 x1 x2 x3 = A
  generalize val_main_v9 (F := Ideal) x0 x1 x4 = V
  show _ = ∑ k : Fin 2048, A (ix3 (i 0) (i 1) k) * V (ix3 (i 0) k (i 2))
  refine Finset.sum_congr rfl fun k _ => ?_
  congr 1
  · exact congrArg A (funext fun a => by match a with | ⟨0, _⟩ => rfl | ⟨1, _⟩ => rfl | ⟨2, _⟩ => rfl)
  · exact congrArg V (funext fun a => by match a with | ⟨0, _⟩ => rfl | ⟨1, _⟩ => rfl | ⟨2, _⟩ => rfl)

/-- The last projection plus the bias, of the reference's own context array. -/
theorem ref_out (x0 : (⟨S4x2048, .i32⟩ : BufTy).Contents (Elt Ideal)) (x1 : (⟨S32000x1024, .f32⟩ : BufTy).Contents (Elt Ideal)) (x2 x3 x4 : (⟨S1024x1024, .f32⟩ : BufTy).Contents (Elt Ideal)) (x5 : (⟨S32000x1024, .f32⟩ : BufTy).Contents (Elt Ideal))
    (x6 : (⟨S32000, .f32⟩ : BufTy).Contents (Elt Ideal)) :
    val_main_v33 (F := Ideal) x0 x1 x2 x3 x4 x5 x6
      = logits (val_main_v29 (F := Ideal) x0 x1 x2 x3 x4) x5 x6 := by
  funext i
  rw [val_main_v33_apply, val_main_v30_apply, val_main_v32_apply, val_main_v31_apply]
  generalize val_main_v29 (F := Ideal) x0 x1 x2 x3 x4 = O
  show (∑ k : Fin 1024, O (lidx_main_v30 i k) * x5 (ridx_main_v30 i k)) + x6 (idx_main_v31 (idx_main_v32 i))
    = (∑ d : Fin 1024, O (ix3 (i 0) (i 1) d) * x5 (ix2 (i 2) d)) + x6 (ix1 (i 2))
  congr 1
  · refine Finset.sum_congr rfl fun k _ => ?_
    congr 1
    · exact congrArg O (funext fun a => by match a with | ⟨0, _⟩ => rfl | ⟨1, _⟩ => rfl | ⟨2, _⟩ => rfl)
    · exact congrArg x5 (funext fun a => by match a with | ⟨0, _⟩ => rfl | ⟨1, _⟩ => rfl)
  · exact congrArg x6 (funext fun a => by match a with | ⟨0, _⟩ => rfl)

/-- The reference's logits are the specification's. -/
theorem ref_logits (x0 : (⟨S4x2048, .i32⟩ : BufTy).Contents (Elt Ideal)) (x1 : (⟨S32000x1024, .f32⟩ : BufTy).Contents (Elt Ideal)) (x2 x3 x4 : (⟨S1024x1024, .f32⟩ : BufTy).Contents (Elt Ideal)) (x5 : (⟨S32000x1024, .f32⟩ : BufTy).Contents (Elt Ideal))
    (x6 : (⟨S32000, .f32⟩ : BufTy).Contents (Elt Ideal)) :
    val_main_v33 (F := Ideal) x0 x1 x2 x3 x4 x5 x6
      = logits (ctx (attn scDiv (proj (val_main_v6 (F := Ideal) x0 x1) x2) (proj (val_main_v6 (F := Ideal) x0 x1) x3))
          (proj (val_main_v6 (F := Ideal) x0 x1) x4)) x5 x6 := by
  rw [ref_out, ref_ctx, ref_attn, ref_v]

end Cert.ReferenceIdeal.RefValue

end
-- ==== Proof.lean ====
/-
  The proof of `Cert.Claim`: a token lookup, three projections, causal attention and an output projection, computed
  by three tiled matrix kernels with host reshapes between them, against the same network written as whole-array
  einsums.

  Over the extended reals a change of float format is the identity, so both programs compute, from the looked-up
  rows `X`: queries, keys and values `X · Wᵀ`; scores `q · k` rescaled, `⊥` beyond the query's own position; the
  row softmax `exp (s − max s) / ∑ exp (s − max s)`; the weighted value rows; and `O · Woutᵀ + b`. They differ in two
  spellings only. The kernel multiplies a score by `1/32` where the reference divides by `√1024`: one function on
  every extended real (`scDiv_eq_scMul`). The kernel fills the masked scores with a finite stand-in for `-∞`, which
  the idealized kernel names and reads as `⊥`, the reference's own fill: the one entry of `preserves`. Everything
  else is bookkeeping: each kernel region's blocks tile its output arrays and each block is the block of one
  whole-array function (the value modules), the host reshapes regroup rows (the glue), and the reference's
  operations read at an index are the same functions (the reference module). The frames of the two kernel programs
  are the generated ones; the reference's is its generated run with the results dropped.
-/
import proofs.«169576_j4982162063789_2_alg».proof.Defs
import proofs.«169576_j4982162063789_2_alg».proof.Proof.Gen.Kernel
import proofs.«169576_j4982162063789_2_alg».proof.Proof.Gen.KernelIdeal
import proofs.«169576_j4982162063789_2_alg».proof.Proof.Gen.ReferenceIdeal
import proofs.«169576_j4982162063789_2_alg».proof.Proof.Gen.Pre_finite_inputs
import proofs.«169576_j4982162063789_2_alg».proof.Proof.Gen.ReferenceIdeal.Run
import proofs.«169576_j4982162063789_2_alg».proof.Proof.Gen.ReferenceIdeal.Read
import proofs.«169576_j4982162063789_2_alg».proof.Proof.KernelFrameP
import proofs.«169576_j4982162063789_2_alg».proof.Proof.KernelIdealFrameP
import proofs.«169576_j4982162063789_2_alg».proof.Proof.KernelRun
import proofs.«169576_j4982162063789_2_alg».proof.Proof.KernelGlue
import proofs.«169576_j4982162063789_2_alg».proof.Proof.ValueProj
import proofs.«169576_j4982162063789_2_alg».proof.Proof.ValueOut
import proofs.«169576_j4982162063789_2_alg».proof.Proof.ValueAttn
import proofs.«169576_j4982162063789_2_alg».proof.Proof.RefValue
import proofs.«169576_j4982162063789_2_alg».proof.Proof.Consts
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

/-- The reference's frame: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The one rewrite of the ideal pass: the fill of the masked scores is named, and the name denotes `⊥`. -/
theorem preserves : Cert.preserves_Kernel_KernelIdeal :=
  IdealRules.named_const.statement Cert.KernelIdeal.κ "neg_big" .f32 0xF149F2CA#32 ⊥ rfl

section Algebraic

open Cert.KernelIdeal Cert.KernelIdeal.GenP Cert.Attn

/-- Both programs end with the logits and the attention weights of the specification at the argument arrays: the
    kernel by its regions' values through the host reshapes, the reference by its operations read at an index, the
    two rescalings of a score being one function. -/
theorem algebraic : Cert.algebraic_KernelIdeal_ReferenceIdeal := by
  intro m ρ m' ρ' _ hagree
  refine ⟨fun c => W7 m ρ c (Proc.devRef .tc main_v21), fun c => W7 m ρ c (Proc.devRef .tc main_v16_1), ?_, ?_⟩
  · refine (θ_run Cert.KernelIdeal.defs _ _).mono (fun r h c => ⟨?_, ?_, ?_, ?_, ?_, ?_, ?_, ?_, ?_⟩) (run_all (F := Ideal) m ρ)
    · exact run_all_at m ρ h c main_v21 (by decide)
    · exact run_all_at m ρ h c main_v16_1 (by decide)
    · exact (run_all_at m ρ h c main_arg0 (by decide)).trans (W7_main_arg0 m ρ c)
    · exact (run_all_at m ρ h c main_arg1 (by decide)).trans (W7_main_arg1 m ρ c)
    · exact (run_all_at m ρ h c main_arg2 (by decide)).trans (W7_main_arg2 m ρ c)
    · exact (run_all_at m ρ h c main_arg3 (by decide)).trans (W7_main_arg3 m ρ c)
    · exact (run_all_at m ρ h c main_arg4 (by decide)).trans (W7_main_arg4 m ρ c)
    · exact (run_all_at m ρ h c main_arg5 (by decide)).trans (W7_main_arg5 m ρ c)
    · exact (run_all_at m ρ h c main_arg6 (by decide)).trans (W7_main_arg6 m ρ c)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v33_eq, Cert.ReferenceIdeal.RefValue.ref_logits, scDiv_eq_scMul,
        (hagree c).1, (hagree c).2.1, (hagree c).2.2.1, (hagree c).2.2.2.1, (hagree c).2.2.2.2.1, (hagree c).2.2.2.2.2.1,
        (hagree c).2.2.2.2.2.2]
      exact (W7_logits m ρ final0_4 final0_5 final0_6 final1_3 final2_3 c).symm
    · rw [(h c).2.1, Cert.ReferenceIdeal.Read.val_main_v28_eq, Cert.ReferenceIdeal.RefValue.ref_attn, scDiv_eq_scMul,
        (hagree c).1, (hagree c).2.1, (hagree c).2.2.1, (hagree c).2.2.2.1]
      exact (W7_weights m ρ final0_4 final0_5 final1_4 c).symm

end Algebraic

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
